-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x1024 : Shape := ⟨3, ![8, 4096, 1024]⟩
abbrev S256x1024 : Shape := ⟨2, ![256, 1024]⟩
abbrev S256 : Shape := ⟨1, ![256]⟩
abbrev S1024x256 : Shape := ⟨2, ![1024, 256]⟩
abbrev S1024 : Shape := ⟨1, ![1024]⟩
abbrev S_ : Shape := ⟨0, ![]⟩

class Facts : Prop where
  bcast_S_S8x4096x1024 : S_.BroadcastsInDim S8x4096x1024 (![] : Fin 0 → Fin S8x4096x1024.rank)
  reducesTo_S8x4096x1024_S_d0_1_2 : S8x4096x1024.ReducesTo [0, 1, 2] S_
  h_S_ : 0 < S_.numel
  bcast_S_S256x1024 : S_.BroadcastsInDim S256x1024 (![] : Fin 0 → Fin S256x1024.rank)
  reducesTo_S256x1024_S_d0_1 : S256x1024.ReducesTo [0, 1] S_
  bcast_S_S256 : S_.BroadcastsInDim S256 (![] : Fin 0 → Fin S256.rank)
  reducesTo_S256_S_d0 : S256.ReducesTo [0] S_
  bcast_S_S1024x256 : S_.BroadcastsInDim S1024x256 (![] : Fin 0 → Fin S1024x256.rank)
  reducesTo_S1024x256_S_d0_1 : S1024x256.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S256 .f32) (main_arg5 : FVec F S1024x256 .f32) (main_arg6 : FVec F S1024 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S1024x256 .f32 := Host.absf main_arg5
  let main_cst_8 : FVec F S_ .f32 := constant S_ .f32 0x7F800000#32
  let main_v25 : FVec F S1024x256 .f32 := broadcastInDim S1024x256 ![] bcast_S_S1024x256 main_cst_8
  let main_v26 : IVec S1024x256 1 := cmpf .olt main_v24 main_v25
  let main_c_9 : IVec S_ 1 := constantI S_ 1 1#1
  let main_v27 : IVec S_ 1 := (fun x v => Host.reduce IntOp.andi x v reducesTo_S1024x256_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S8x4096x1024 .f32) (main_arg1 : FVec F S256x1024 .f32) (main_arg2 : FVec F S256 .f32) (main_arg3 : FVec F S256 .f32) (main_arg4 : FVec F S256 .f32) (main_arg5 : FVec F S1024x256 .f32) (main_arg6 : FVec F S1024 .f32) : IVec S_ 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_c : IVec S_ 1 := constantI S_ 1 1#1
  let main_v3 : IVec S_ 1 := (fun x v => Host.reduce IntOp.andi x v reducesTo_S8x4096x1024_S_d0_1_2 h_S_) main_v2 main_c
  let main_v4 : FVec F S256x1024 .f32 := Host.absf main_arg1
  let main_cst_0 : FVec F S_ .f32 := constant S_ .f32 0x7F800000#32
  let main_v5 : FVec F S256x1024 .f32 := broadcastInDim S256x1024 ![] bcast_S_S256x1024 main_cst_0
  let main_v6 : IVec S256x1024 1 := cmpf .olt main_v4 main_v5
  let main_c_1 : IVec S_ 1 := constantI S_ 1 1#1
  let main_v7 : IVec S_ 1 := (fun x v => Host.reduce IntOp.andi x v reducesTo_S256x1024_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_v13 main_v16
-- ==== Kernel.lean ====
abbrev S8x4096x1024 : Shape := ⟨3, ![8, 4096, 1024]⟩
abbrev S256x1024 : Shape := ⟨2, ![256, 1024]⟩
abbrev S256 : Shape := ⟨1, ![256]⟩
abbrev S1024x256 : Shape := ⟨2, ![1024, 256]⟩
abbrev S1024 : Shape := ⟨1, ![1024]⟩
abbrev S1x256 : Shape := ⟨2, ![1, 256]⟩
abbrev S1x1024 : Shape := ⟨2, ![1, 1024]⟩
abbrev S8x64x256 : Shape := ⟨3, ![8, 64, 256]⟩
abbrev S1x2048x1024 : Shape := ⟨3, ![1, 2048, 1024]⟩
abbrev S1x32x256 : Shape := ⟨3, ![1, 32, 256]⟩
abbrev S2048x1024 : Shape := ⟨2, ![2048, 1024]⟩
abbrev S2048x256 : Shape := ⟨2, ![2048, 256]⟩
abbrev S32x64x256 : Shape := ⟨3, ![32, 64, 256]⟩
abbrev S32x256 : Shape := ⟨2, ![32, 256]⟩
abbrev S512x256 : Shape := ⟨2, ![512, 256]⟩
abbrev S512x1024 : Shape := ⟨2, ![512, 1024]⟩
abbrev S8x64x1024 : Shape := ⟨3, ![8, 64, 1024]⟩

abbrev nBuf : Space → Nat
  | .hbm => 19
  | .vmem => 12
  | .smem => 0
  | _ => 0

abbrev bufTy : (tb : Table) → Fin (tcTables nBuf tb) → BufTy
  | .hbm, ⟨0, _⟩ => ⟨S8x4096x1024, .f32⟩
  | .hbm, ⟨1, _⟩ => ⟨S256x1024, .f32⟩
  | .hbm, ⟨2, _⟩ => ⟨S256, .f32⟩
  | .hbm, ⟨3, _⟩ => ⟨S256, .f32⟩
  | .hbm, ⟨4, _⟩ => ⟨S256, .f32⟩
  | .hbm, ⟨5, _⟩ => ⟨S1024x256, .f32⟩
  | .hbm, ⟨6, _⟩ => ⟨S1024, .f32⟩
  | .hbm, ⟨7, _⟩ => ⟨S1024x256, .f32⟩
  | .hbm, ⟨8, _⟩ => ⟨S1024x256, .bf16⟩
  | .hbm, ⟨9, _⟩ => ⟨S1x256, .f32⟩
  | .hbm, ⟨10, _⟩ => ⟨S256x1024, .f32⟩
  | .hbm, ⟨11, _⟩ => ⟨S256x1024, .bf16⟩
  | .hbm, ⟨12, _⟩ => ⟨S1x1024, .f32⟩
  | .hbm, ⟨13, _⟩ => ⟨S1x256, .f32⟩
  | .hbm, ⟨14, _⟩ => ⟨S1x256, .f32⟩
  | .hbm, ⟨15, _⟩ => ⟨S8x64x256, .f32⟩
  | .hbm, ⟨16, _⟩ => ⟨S512x256, .f32⟩
  | .hbm, ⟨17, _⟩ => ⟨S512x1024, .f32⟩
  | .hbm, ⟨18, _⟩ => ⟨S8x64x1024, .f32⟩
  | .local _ .vmem, ⟨0, _⟩ => ⟨S1x2048x1024, .f32⟩
  | .local _ .vmem, ⟨1, _⟩ => ⟨S1x2048x1024, .f32⟩
  | .local _ .vmem, ⟨2, _⟩ => ⟨S1024x256, .bf16⟩
  | .local _ .vmem, ⟨3, _⟩ => ⟨S1x256, .f32⟩
  | .local _ .vmem, ⟨4, _⟩ => ⟨S1x32x256, .f32⟩
  | .local _ .vmem, ⟨5, _⟩ => ⟨S1x32x256, .f32⟩
  | .local _ .vmem, ⟨6, _⟩ => ⟨S512x256, .f32⟩
  | .local _ .vmem, ⟨7, _⟩ => ⟨S1x256, .f32⟩
  | .local _ .vmem, ⟨8, _⟩ => ⟨S1x256, .f32⟩
  | .local _ .vmem, ⟨9, _⟩ => ⟨S256x1024, .bf16⟩
  | .local _ .vmem, ⟨10, _⟩ => ⟨S1x1024, .f32⟩
  | .local _ .vmem, ⟨11, _⟩ => ⟨S512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x32x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S512x256 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S512x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

class Facts₀ : Prop where
  transposes_S256x1024_S1024x256_1_0 : S256x1024.Transposes [1, 0] S1024x256
  bitsLt_bf16_f32 : FTy.bits .bf16 < FTy.bits .f32
  shapeCasts_S256_S1x256 : S256.ShapeCasts S1x256
  transposes_S1024x256_S256x1024_1_0 : S1024x256.Transposes [1, 0] S256x1024
  shapeCasts_S1024_S1x1024 : S1024.ShapeCasts S1x1024
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  shapeCasts_S2048x256_S32x64x256 : S2048x256.ShapeCasts S32x64x256
  reduces_S32x64x256_S32x256 : S32x64x256.Reduces [1] S32x256
  inb_S1x32x256_S1x32x256_0_0_0 : ∀ a, (![0, 0, 0] : Fin 3 → Nat) a + S1x32x256.size a ≤ S1x32x256.size a
  h_S1x32x256 : 0 < S1x32x256.numel
  shapeCasts_S1x32x256_S32x256 : S1x32x256.ShapeCasts S32x256
  shapeCasts_S32x256_S1x32x256 : S32x256.ShapeCasts S1x32x256
  shapeCasts_S8x64x256_S512x256 : S8x64x256.ShapeCasts S512x256
  inb_S512x256_S512x256_0_0 : ∀ a, (![0, 0] : Fin 2 → Nat) a + S512x256.size a ≤ S512x256.size a
  h_S512x256 : 0 < S512x256.numel
  shapeCasts_S512x256_S512x256 : S512x256.ShapeCasts S512x256
  reduces_S512x256_S256 : S512x256.Reduces [0] S256
  broadcasts_S1x256_S512x256 : S1x256.Broadcasts S512x256
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S512x1024_S512x1024_0_0 : ∀ a, (![0, 0] : Fin 2 → Nat) a + S512x1024.size a ≤ S512x1024.size a
  h_S512x1024 : 0 < S512x1024.numel
  shapeCasts_S512x1024_S8x64x1024 : S512x1024.ShapeCasts S8x64x1024
  dot_S2048x1024_S1024x256_S2048x256_1_0_0_1_n_n_wf : DotDims.WF S2048x1024 S1024x256 S2048x256 [1] [0] [0] [1] [] []
  dot_S512x256_S256x1024_S512x1024_1_0_0_1_n_n_wf : DotDims.WF S512x256 S256x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x1024.size a ≤ S8x4096x1024.size a
  hwx0_0 : ∀ i : grid0.Coords, EltTy.bits .f32 = 32 ∨ (Rect.block (s := S8x4096x1024) S1x2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S1024x256.size a
  hwx0_1 : ∀ i : grid0.Coords, EltTy.bits .bf16 = 32 ∨ (Rect.block (s := S1024x256) S1024x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x32x256.size a ≤ S8x64x256.size a
  hwx0_3 : ∀ i : grid0.Coords, EltTy.bits .f32 = 32 ∨ (Rect.block (s := S8x64x256) S1x32x256.size (cc0_transform_3 i) (hinb0_3 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S512x256.size a ≤ S512x256.size a
  hwx1_0 : ∀ i : grid1.Coords, EltTy.bits .f32 = 32 ∨ (Rect.block (s := S512x256) S512x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x1024.size a ≤ S256x1024.size a
  hwx1_3 : ∀ i : grid1.Coords, EltTy.bits .bf16 = 32 ∨ (Rect.block (s := S256x1024) S256x1024.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1024.size a ≤ S1x1024.size a
  hwx1_4 : ∀ i : grid1.Coords, EltTy.bits .f32 = 32 ∨ (Rect.block (s := S1x1024) S1x1024.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S512x1024.size a ≤ S512x1024.size a
  hwx1_5 : ∀ i : grid1.Coords, EltTy.bits .f32 = 32 ∨ (Rect.block (s := S512x1024) S512x1024.size (cc1_transform_5 i) (hinb1_5 i)).WholeWords (EltTy.packing .f32)

variable [Facts₀]

def dot_S2048x1024_S1024x256_S2048x256_1_0_0_1_n_n : DotDims S2048x1024 S1024x256 S2048x256 where
  lhsContracting := [1]
  rhsContracting := [0]
  lhsNonContracting := [0]
  rhsNonContracting := [1]
  lhsBatch := []
  rhsBatch := []
  wf := dot_S2048x1024_S1024x256_S2048x256_1_0_0_1_n_n_wf
def dot_S512x256_S256x1024_S512x1024_1_0_0_1_n_n : DotDims S512x256 S256x1024 S512x1024 where
  lhsContracting := [1]
  rhsContracting := [0]
  lhsNonContracting := [0]
  rhsNonContracting := [1]
  lhsBatch := []
  rhsBatch := []
  wf := dot_S512x256_S256x1024_S512x1024_1_0_0_1_n_n_wf

abbrev win0_0 : Pipeline.Window sig grid0 :=
  Pipeline.Window.ofSpec (Memref.whole main_arg0) S1x2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1x32x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v9) S512x256.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v6) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v7) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v4) S256x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v5) S1x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v10) S512x1024.size cc1_transform_5 reads1_5 true true 1 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S8x4096x1024 : Shape := ⟨3, ![8, 4096, 1024]⟩
abbrev S256x1024 : Shape := ⟨2, ![256, 1024]⟩
abbrev S256 : Shape := ⟨1, ![256]⟩
abbrev S1024x256 : Shape := ⟨2, ![1024, 256]⟩
abbrev S1024 : Shape := ⟨1, ![1024]⟩
abbrev S8x4096x256 : Shape := ⟨3, ![8, 4096, 256]⟩
abbrev S1x1x256 : Shape := ⟨3, ![1, 1, 256]⟩
abbrev S8x64x64x256 : Shape := ⟨4, ![8, 64, 64, 256]⟩
abbrev S_ : Shape := ⟨0, ![]⟩
abbrev S8x64x256 : Shape := ⟨3, ![8, 64, 256]⟩
abbrev S8x64x1024 : Shape := ⟨3, ![8, 64, 1024]⟩
abbrev S1x1x1024 : Shape := ⟨3, ![1, 1, 1024]⟩

abbrev nBuf : Space → Nat
  | .hbm => 51
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S256x1024, .f32⟩
  | .hbm, ⟨2, _⟩ => ⟨S256, .f32⟩
  | .hbm, ⟨3, _⟩ => ⟨S256, .f32⟩
  | .hbm, ⟨4, _⟩ => ⟨S256, .f32⟩
  | .hbm, ⟨5, _⟩ => ⟨S1024x256, .f32⟩
  | .hbm, ⟨6, _⟩ => ⟨S1024, .f32⟩
  | .hbm, ⟨7, _⟩ => ⟨S8x4096x256, .f32⟩
  | .hbm, ⟨8, _⟩ => ⟨S1x1x256, .f32⟩
  | .hbm, ⟨9, _⟩ => ⟨S8x4096x256, .f32⟩
  | .hbm, ⟨10, _⟩ => ⟨S8x4096x256, .f32⟩
  | .hbm, ⟨11, _⟩ => ⟨S8x64x64x256, .f32⟩
  | .hbm, ⟨12, _⟩ => ⟨S_, .f32⟩
  | .hbm, ⟨13, _⟩ => ⟨S8x64x256, .f32⟩
  | .hbm, ⟨14, _⟩ => ⟨S_, .f32⟩
  | .hbm, ⟨15, _⟩ => ⟨S8x64x256, .f32⟩
  | .hbm, ⟨16, _⟩ => ⟨S8x64x256, .f32⟩
  | .hbm, ⟨17, _⟩ => ⟨S_, .f32⟩
  | .hbm, ⟨18, _⟩ => ⟨S256, .f32⟩
  | .hbm, ⟨19, _⟩ => ⟨S_, .f32⟩
  | .hbm, ⟨20, _⟩ => ⟨S256, .f32⟩
  | .hbm, ⟨21, _⟩ => ⟨S256, .f32⟩
  | .hbm, ⟨22, _⟩ => ⟨S1x1x256, .f32⟩
  | .hbm, ⟨23, _⟩ => ⟨S8x64x256, .f32⟩
  | .hbm, ⟨24, _⟩ => ⟨S8x64x256, .f32⟩
  | .hbm, ⟨25, _⟩ => ⟨S8x64x256, .f32⟩
  | .hbm, ⟨26, _⟩ => ⟨S_, .f32⟩
  | .hbm, ⟨27, _⟩ => ⟨S256, .f32⟩
  | .hbm, ⟨28, _⟩ => ⟨S_, .f32⟩
  | .hbm, ⟨29, _⟩ => ⟨S256, .f32⟩
  | .hbm, ⟨30, _⟩ => ⟨S256, .f32⟩
  | .hbm, ⟨31, _⟩ => ⟨S1x1x256, .f32⟩
  | .hbm, ⟨32, _⟩ => ⟨S8x64x256, .f32⟩
  | .hbm, ⟨33, _⟩ => ⟨S8x64x256, .f32⟩
  | .hbm, ⟨34, _⟩ => ⟨S_, .f32⟩
  | .hbm, ⟨35, _⟩ => ⟨S256, .f32⟩
  | .hbm, ⟨36, _⟩ => ⟨S256, .f32⟩
  | .hbm, ⟨37, _⟩ => ⟨S256, .f32⟩
  | .hbm, ⟨38, _⟩ => ⟨S1x1x256, .f32⟩
  | .hbm, ⟨39, _⟩ => ⟨S8x64x256, .f32⟩
  | .hbm, ⟨40, _⟩ => ⟨S8x64x256, .f32⟩
  | .hbm, ⟨41, _⟩ => ⟨S1x1x256, .f32⟩
  | .hbm, ⟨42, _⟩ => ⟨S8x64x256, .f32⟩
  | .hbm, ⟨43, _⟩ => ⟨S8x64x256, .f32⟩
  | .hbm, ⟨44, _⟩ => ⟨S1x1x256, .f32⟩
  | .hbm, ⟨45, _⟩ => ⟨S8x64x256, .f32⟩
  | .hbm, ⟨46, _⟩ => ⟨S8x64x256, .f32⟩
  | .hbm, ⟨47, _⟩ => ⟨S8x64x1024, .f32⟩
  | .hbm, ⟨48, _⟩ => ⟨S1x1x1024, .f32⟩
  | .hbm, ⟨49, _⟩ => ⟨S8x64x1024, .f32⟩
  | .hbm, ⟨50, _⟩ => ⟨S8x64x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_call0_cst : Ref sig .tc := ⟨.hbm, 14, rfl⟩
abbrev main_call0_v0 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_cst_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩

abbrev nD : Nat := 1
abbrev τ : Topo := Topo.v7x

variable {F : FTy → Type} [FloatOps F]

class Facts₀ : Prop where
  bcast_S256_S1x1x256_2 : S256.BroadcastsInDim S1x1x256 (![2] : Fin 1 → Fin S1x1x256.rank)
  bcast_S1x1x256_S8x4096x256_0_1_2 : S1x1x256.BroadcastsInDim S8x4096x256 (![0, 1, 2] : Fin 3 → Fin S8x4096x256.rank)
  shapeCasts_S8x4096x256_S8x64x64x256 : S8x4096x256.ShapeCasts S8x64x64x256
  reducesTo_S8x64x64x256_S8x64x256_d2 : S8x64x64x256.ReducesTo [2] S8x64x256
  h_S_ : 0 < S_.numel
  bcast_S_S8x64x256 : S_.BroadcastsInDim S8x64x256 (![] : Fin 0 → Fin S8x64x256.rank)
  reducesTo_S8x64x256_S256_d0_1 : S8x64x256.ReducesTo [0, 1] S256
  bcast_S_S256 : S_.BroadcastsInDim S256 (![] : Fin 0 → Fin S256.rank)
  bcast_S1x1x256_S8x64x256_0_1_2 : S1x1x256.BroadcastsInDim S8x64x256 (![0, 1, 2] : Fin 3 → Fin S8x64x256.rank)
  bcast_S1024_S1x1x1024_2 : S1024.BroadcastsInDim S1x1x1024 (![2] : Fin 1 → Fin S1x1x1024.rank)
  bcast_S1x1x1024_S8x64x1024_0_1_2 : S1x1x1024.BroadcastsInDim S8x64x1024 (![0, 1, 2] : Fin 3 → Fin S8x64x1024.rank)
  dot_S8x4096x1024_S256x1024_S8x4096x256_2_1_01_0_n_n_wf : DotDims.WF S8x4096x1024 S256x1024 S8x4096x256 [2] [1] [0, 1] [0] [] []
  dot_S8x64x256_S1024x256_S8x64x1024_2_1_01_0_n_n_wf : DotDims.WF S8x64x256 S1024x256 S8x64x1024 [2] [1] [0, 1] [0] [] []

variable [Facts₀]

def dot_S8x4096x1024_S256x1024_S8x4096x256_2_1_01_0_n_n : DotDims S8x4096x1024 S256x1024 S8x4096x256 where
  lhsContracting := [2]
  rhsContracting := [1]
  lhsNonContracting := [0, 1]
  rhsNonContracting := [0]
  lhsBatch := []
  rhsBatch := []
  wf := dot_S8x4096x1024_S256x1024_S8x4096x256_2_1_01_0_n_n_wf
def dot_S8x64x256_S1024x256_S8x64x1024_2_1_01_0_n_n : DotDims S8x64x256 S1024x256 S8x64x1024 where
  lhsContracting := [2]
  rhsContracting := [1]
  lhsNonContracting := [0, 1]
  rhsNonContracting := [0]
  lhsBatch := []
  rhsBatch := []
  wf := dot_S8x64x256_S1024x256_S8x64x1024_2_1_01_0_n_n_wf

class Facts : Prop extends Facts₀ where

variable [Facts]
-- ==== Proof.KerRun.lean ====
/-
  The idealized kernel's program, run: two kernel regions among three stretches of host operations.

  Every unscoped buffer of a core ends at the contents the last boundary of the program assigns it — the fold of the
  host stretches and of the two regions' write-backs from the launch memory. Read at the result buffer this is the
  value of the program; read at an argument it is the argument as launched. Stated at any float instance.
-/
import proofs.«119483_j28656021799561_2_alg».proof.Proof.Gen.KernelIdeal.Frame

set_option maxRecDepth 16384

noncomputable section

namespace Cert.KernelIdeal.KerValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, the result buffer ends at the last boundary's contents and the
    arguments as launched. -/
theorem run_boundary : θ_run defs (onTc (τ := τ) (main (F := F))) ⟨m, fun _ => 0, ρ⟩ (fun r => ∀ c : Dev nD,
      r.2.mem ((c.tc : Thread nD τ).loc main_v11) = W5 m ρ c (Proc.devRef .tc main_v11)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v11 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c)⟩)

end Cert.KernelIdeal.KerValue

end
-- ==== Proof.LibMatmulPlain.lean ====
/-
  A plain matrix product into a zero accumulator, read at an entry, over the extended reals.

  For the dimension numbers `DotDims.plain M K N` (an `M × K` left operand, a `K × N` right operand, the left one's
  columns contracted with the right one's rows, no batch axis) entry `(p, q)` of the product accumulated into the
  zero matrix is `Σ_{k < K} l (p, k) * r (k, q)`: the contraction index has one coordinate, which runs over `Fin K`.
-/
import Idealize.ShloMosaic.PureOps.Ideal.Laws
import Idealize.ShloMosaic.Lib.ValueIdx

noncomputable section

open scoped BigOperators

namespace Cert.Lib

open Idealize.ShloMosaic Idealize.ShloMosaic.ValueIdx

/-- The left operand's index at output entry `(p, q)` and contraction coordinate `k` is `(p, k)`. -/
theorem plain_lhsIdx (M K N : Nat) (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  refine Fin.ext ?_
  match a with
  | ⟨0, _⟩ => rfl
  | ⟨1, _⟩ => exact ((DotDims.plain M K N).lhsIdx_val_of_single rfl (ix2 p q) _).trans hk

/-- The right operand's index there is `(k, q)`. -/
theorem plain_rhsIdx (M K N : Nat) (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  refine Fin.ext ?_
  match a with
  | ⟨0, _⟩ => exact ((DotDims.plain M K N).rhsIdx_val_of_single rfl (ix2 p q) _).trans hk
  | ⟨1, _⟩ => rfl

/-- ENTRY `(p, q)` OF A PLAIN PRODUCT INTO ZERO: the sum over `k : Fin K` of `l (p, k) * r (k, q)`. -/
theorem matmul_plain_zero_apply {φ₁ φ₂ : FTy} (M K N : Nat) (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  refine Finset.sum_congr rfl fun k _ => ?_
  rw [plain_lhsIdx, plain_rhsIdx]

end Cert.Lib

end
-- ==== Proof.Spec.lean ====
/-
  What both programs compute, as one function of the seven argument arrays, over the extended reals.

  With `X : 8 × 4096 × 1024`, `Wd : 256 × 1024`, `bd : 256`, `γ β : 256`, `Wu : 1024 × 256`, `bu : 1024`:
  * the down-projection `down b s c = Σ_k X[b,s,k] · Wd[c,k] + bd[c]`;
  * the pooled activation `pooled b p c = max (max_{w < 64} down b (64 p + w) c) 0`, the maximum taken from `-∞`
    over the window of 64 consecutive sequence positions, then clipped at zero;
  * the channel statistics over all `8 · 64` pooled rows: `mean c = (Σ_b Σ_p pooled b p c) / 512` and
    `var c = (Σ_b Σ_p (pooled b p c - mean c)²) / 512`;
  * the normalised activation `normed b p c = (pooled b p c - mean c) · rsqrt (var c + ε) · γ[c] + β[c]`;
  * the result `up b p d = Σ_c normed b p c · Wu[d,c] + bu[d]`.
  Every literal is kept as the word both programs print: `-∞`, zero, 512 and ε.
-/
import Idealize.ShloMosaic.PureOps.Ideal
import Idealize.ShloMosaic.Lib.ValueIdx

noncomputable section

open scoped BigOperators

namespace Cert.Spec

open Idealize.ShloMosaic Idealize.ShloMosaic.ValueIdx

/-- The literals, as the words printed on both sides. -/
abbrev negInf : EReal := Ideal.ofBits .f32 0xFF800000#32
abbrev zeroLit : EReal := Ideal.ofBits .f32 0x00000000#32
abbrev count : EReal := Ideal.ofBits .f32 0x44000000#32
abbrev eps : EReal := Ideal.ofBits .f32 0x3727C5AC#32

/-- Position `64 p + w` of the sequence: element `w` of pooling window `p`. -/
def seqPos (p w : Fin 64) : Fin 4096 := ⟨64 * p.val + w.val, by have := p.isLt; have := w.isLt; omega⟩

variable (X : (⟨3, ![8, 4096, 1024]⟩ : Shape).Idx → EReal) (Wd : (⟨2, ![256, 1024]⟩ : Shape).Idx → EReal)
  (bd : (⟨1, ![256]⟩ : Shape).Idx → EReal)

/-- The down-projection with its bias. -/
def down (b : Fin 8) (s : Fin 4096) (c : Fin 256) : EReal :=
  (∑ k : Fin 1024, X (ix3 b s k) * Wd (ix2 c k)) + bd (ix1 c)

/-- The window maximum from `-∞`, clipped at zero. -/
def pooled (b : Fin 8) (p : Fin 64) (c : Fin 256) : EReal :=
  max ((Finset.univ : Finset (Fin 64)).fold max negInf (fun w => down X Wd bd b (seqPos p w) c)) zeroLit

variable (P : Fin 8 → Fin 64 → Fin 256 → EReal)

/-- The mean of a channel over the 512 pooled rows. -/
def chanMean (c : Fin 256) : EReal := Ideal.div (∑ b : Fin 8, ∑ p : Fin 64, P b p c) count

/-- The biased variance of a channel over the 512 pooled rows. -/
def chanVar (c : Fin 256) : EReal :=
  Ideal.div (∑ b : Fin 8, ∑ p : Fin 64, (P b p c - chanMean P c) * (P b p c - chanMean P c)) count

variable (γ β : (⟨1, ![256]⟩ : Shape).Idx → EReal)

/-- The batch-normalised activation. -/
def normed (b : Fin 8) (p : Fin 64) (c : Fin 256) : EReal :=
  (P b p c - chanMean P c) * Ideal.rsqrt (chanVar P c + eps) * γ (ix1 c) + β (ix1 c)

variable (Wu : (⟨2, ![1024, 256]⟩ : Shape).Idx → EReal) (bu : (⟨1, ![1024]⟩ : Shape).Idx → EReal)

/-- The up-projection of the normalised activation, with its bias. -/
def up (b : Fin 8) (p : Fin 64) (d : Fin 1024) : EReal :=
  (∑ c : Fin 256, normed P γ β b p c * Wu (ix2 d c)) + bu (ix1 d)

/-- THE RESULT ARRAY, `8 × 64 × 1024`, index by index. -/
def result : (⟨3, ![8, 64, 1024]⟩ : Shape).Idx → EReal := fun i =>
  up (pooled X Wd bd) γ β Wu bu ⟨(i 0).val, (i 0).isLt⟩ ⟨(i 1).val, (i 1).isLt⟩ ⟨(i 2).val, (i 2).isLt⟩

theorem result_apply (b : Fin 8) (p : Fin 64) (d : Fin 1024) :
    result X Wd bd γ β Wu bu (ix3 b p d) = up (pooled X Wd bd) γ β Wu bu b p d := rfl

end Cert.Spec

end
-- ==== Proof.KerDownPool.lean ====
/-
  The first kernel's body, read at an entry of the block it stores.

  On a block of 2048 sequence rows the body multiplies the rows by the transposed down-projection weights, adds the bias
  row, regroups the 2048 rows as 32 windows of 64, takes each window's maximum from `-∞` and clips it at zero. So entry
  `(pl, c)` of the stored `32 × 256` block is `max (max_{w < 64} (Σ_k x[64 pl + w, k] · wᵀ[k, c] + bias[c])) 0`: the matrix
  product into the zero accumulator is the plain sum over `k`, the change of float format is the identity, and row
  `64 pl + w` of the block is element `w` of window `pl` because the regrouping keeps the row-major order.
-/
import proofs.«119483_j28656021799561_2_alg».proof.Proof.Gen.KernelIdeal.Skeleton
import proofs.«119483_j28656021799561_2_alg».proof.Proof.LibMatmulPlain
import proofs.«119483_j28656021799561_2_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.KerValue

open Cert.KernelIdeal Cert.KernelIdeal.Gen
open Idealize.ShloMosaic Idealize.ShloMosaic.ValueIdx

/-- Row `64 pl + w` of a block of 2048 rows: element `w` of window `pl`. -/
def blockRow (pl : Fin 32) (w : Fin 64) : Fin 2048 := ⟨64 * pl.val + w.val, by have := pl.isLt; have := w.isLt; omega⟩

/-- The body's product contracts the left operand's columns with the right operand's rows, no batch axis. -/
theorem dot0_plain : dot_S2048x1024_S1024x256_S2048x256_1_0_0_1_n_n = DotDims.plain 2048 1024 256 := rfl

set_option backward.isDefEq.respectTransparency.types false in
/-- ENTRY `(pl, c)` OF THE STORED BLOCK: the clipped maximum over window `pl` of the projected rows. -/
theorem pay_downPool (x0 : Vec Ideal S1x2048x1024 .f32) (x1 : Vec Ideal S1024x256 .bf16) (x2 : Vec Ideal S1x256 .f32)
    (u : Fin 1) (pl : Fin 32) (c : Fin 256) :
    k0_pay1 (F := Ideal) x0 x1 x2 (ix3 u pl c)
      = max ((Finset.univ : Finset (Fin 64)).fold max Cert.Spec.negInf
            (fun w => (∑ k : Fin 1024, x0 (ix3 (0 : Fin 1) (blockRow pl w) k) * x1 (ix2 k c)) + x2 (ix2 (0 : Fin 1) c))) Cert.Spec.zeroLit := by
  unfold k0_pay1
  dsimp only
  rw [shapeCast_ab_1ab_apply, maximumf_apply, broadcast_apply]
  -- the window maximum as a fold over the 64 elements of the window
  refine congrArg₂ max ((Ideal.multiReduction_maximumf_single _ _ _ _ _ (ix2 pl c)).trans ?_) rfl
  refine congrArg (fun f : Fin 64 → EReal => Finset.fold max _ f (Finset.univ : Finset (Fin 64))) (funext fun (w : Fin 64) => ?_)
  rw [Function.comp_apply]
  have hl : reduces_S32x64x256_S32x256.lift (ix2 pl c) w = ix3 pl w c := by
    funext a; refine Fin.ext ?_
    match a with
    | ⟨0, _⟩ => rfl
    | ⟨1, _⟩ => rfl
    | ⟨2, _⟩ => rfl
  rw [hl]
  -- element `w` of window `pl` is row `64 pl + w`: the regrouping keeps the row-major position
  rw [shapeCast_apply _ _ (ix3 pl w c) (ix2 (blockRow pl w) c) (by
    rw [Shape.rowMajor_val_three, Shape.rowMajor_val_two]
    show (64 * pl.val + w.val) * 256 + c.val = (pl.val * 64 + w.val) * 256 + c.val
    omega)]
  rw [addf_apply, dot0_plain]
  refine congrArg₂ (· + ·) ((Cert.Lib.matmul_plain_zero_apply 2048 1024 256 none _ _ (blockRow pl w) c).trans ?_) ?_
  · refine Finset.sum_congr rfl fun k _ => ?_
    rw [truncf_apply, shapeCast_1ab_ab_apply, shapeCast_self]
  · rw [broadcastTo_1b_ab_apply, shapeCast_self]

end Cert.KernelIdeal.KerValue

end
-- ==== Proof.KerRegion1.lean ====
/-
  The second region's output array after the region.

  The second kernel has one grid point, and at it every window's block is its whole array. So what the region leaves in its
  output array is the body's value of the five whole input arrays as the region finds them: the one block written back is
  the whole array, and it covers every index.
-/
import proofs.«119483_j28656021799561_2_alg».proof.Proof.Gen.KernelIdeal.Frame
import Idealize.ShloMosaic.Lib.Pipeline.Value

set_option maxRecDepth 16384

noncomputable section

namespace Cert.KernelIdeal.KerValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (V : (c : Dev nD) → (b : Ref sig .tc) → Buf (Elt F) ((c : Thread nD τ).loc b))

/-- The origin of a rank-2 array. -/
theorem off2_zero : (![0, 0] : Fin 2 → Nat) = fun _ => 0 := funext fun a => by fin_cases a <;> rfl

/-- What the second region leaves in its output array: the body's value of the five whole input arrays. -/
def bnUpArr (c : Dev nD) : S512x1024.Idx → Elt F .f32 :=
  k1_pay1 (V c main_v9) (V c main_v6) (V c main_v7) (V c main_v4) (V c main_v5)

/-- The one grid point's block of every window starts at the array's origin. -/
theorem idx_facts1 : ∀ t : Fin cfg1.N,
    win1_0.index t (0 : Fin 2) = 0
    ∧ win1_0.index t (1 : Fin 2) = 0
    ∧ win1_1.index t (0 : Fin 2) = 0
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0 :=
  (by decide +kernel : ∀ t : Fin grid1.N, _)

/-- What the one point writes back is the whole-array value read through the point's block. -/
theorem flushed1_eq (c : Dev nD) (t : Fin cfg1.N) :
    (dat1 V c).flushed 5 t = ((cfg1.win 5).blk t).view.read (Elt F) (bnUpArr V c) := by
  show (cfg1.win 5).cut (grid1.coords t) ((dat1 V c).after 5 t) = _
  rw [after1_5]
  unfold out1_5
  rw [View.canon_unit_zero off2_zero]
  simp only [View.ld_unit_zero (S := S512x256) off2_zero, View.ld_unit_zero (S := S1x256) off2_zero,
    View.ld_unit_zero (S := S256x1024) off2_zero, View.ld_unit_zero (S := S1x1024) off2_zero]
  obtain ⟨e00, e01, e10, e11, e20, e21, e30, e31, e40, e41, e50, e51⟩ := idx_facts1 t
  have b0 : iblk1 V c 0 t = V c main_v9 := by
    funext y
    show V c main_v9 (((cfg1.win 0).blk t).view.emb y) = V c main_v9 y
    refine congrArg _ (funext fun a => Fin.ext ?_)
    match a with
    | ⟨0, _⟩ => show win1_0.index t (0 : Fin 2) * 512 + 1 * (y 0).val = (y 0).val; omega
    | ⟨1, _⟩ => show win1_0.index t (1 : Fin 2) * 256 + 1 * (y 1).val = (y 1).val; omega
  have b1 : iblk1 V c 1 t = V c main_v6 := by
    funext y
    show V c main_v6 (((cfg1.win 1).blk t).view.emb y) = V c main_v6 y
    refine congrArg _ (funext fun a => Fin.ext ?_)
    match a with
    | ⟨0, _⟩ => show win1_1.index t (0 : Fin 2) * 1 + 1 * (y 0).val = (y 0).val; omega
    | ⟨1, _⟩ => show win1_1.index t (1 : Fin 2) * 256 + 1 * (y 1).val = (y 1).val; omega
  have b2 : iblk1 V c 2 t = V c main_v7 := by
    funext y
    show V c main_v7 (((cfg1.win 2).blk t).view.emb y) = V c main_v7 y
    refine congrArg _ (funext fun a => Fin.ext ?_)
    match a with
    | ⟨0, _⟩ => show win1_2.index t (0 : Fin 2) * 1 + 1 * (y 0).val = (y 0).val; omega
    | ⟨1, _⟩ => show win1_2.index t (1 : Fin 2) * 256 + 1 * (y 1).val = (y 1).val; omega
  have b3 : iblk1 V c 3 t = V c main_v4 := by
    funext y
    show V c main_v4 (((cfg1.win 3).blk t).view.emb y) = V c main_v4 y
    refine congrArg _ (funext fun a => Fin.ext ?_)
    match a with
    | ⟨0, _⟩ => show win1_3.index t (0 : Fin 2) * 256 + 1 * (y 0).val = (y 0).val; omega
    | ⟨1, _⟩ => show win1_3.index t (1 : Fin 2) * 1024 + 1 * (y 1).val = (y 1).val; omega
  have b4 : iblk1 V c 4 t = V c main_v5 := by
    funext y
    show V c main_v5 (((cfg1.win 4).blk t).view.emb y) = V c main_v5 y
    refine congrArg _ (funext fun a => Fin.ext ?_)
    match a with
    | ⟨0, _⟩ => show win1_4.index t (0 : Fin 2) * 1 + 1 * (y 0).val = (y 0).val; omega
    | ⟨1, _⟩ => show win1_4.index t (1 : Fin 2) * 1024 + 1 * (y 1).val = (y 1).val; omega
  rw [b0, b1, b2, b3, b4]
  funext j
  show bnUpArr V c j = bnUpArr V c (((cfg1.win 5).blk t).view.emb j)
  refine congrArg (bnUpArr V c) (funext fun a => Fin.ext ?_)
  match a with
  | ⟨0, _⟩ => show (j 0).val = win1_5.index t (0 : Fin 2) * 512 + 1 * (j 0).val; omega
  | ⟨1, _⟩ => show (j 1).val = win1_5.index t (1 : Fin 2) * 1024 + 1 * (j 1).val; omega

/-- An index of the output array is in the point's block iff each coordinate is in the block's range. -/
theorem mem_blk1 (t : Fin cfg1.N) (i : S512x1024.Idx) :
    i ∈ ((cfg1.win 5).blk t).view.set ↔ ∀ a : Fin 2, win1_5.index t a * S512x1024.size a ≤ (i a).val ∧ (i a).val < win1_5.index t a * S512x1024.size a + S512x1024.size a := by
  show i ∈ ((View.whole main_v10).slice (win1_5.rect t)).set ↔ _
  rw [View.set_slice_whole, Rect.mem_set_unit]
  exact Iff.rfl

/-- THE OUTPUT ARRAY AFTER THE SECOND REGION: the body's value of the whole input arrays (the one block is the array). -/
theorem final1 (c : Dev nD) : (dat1 V c).arrAt 5 cfg1.N = bnUpArr V c :=
  (dat1 V c).arrAt_eq_of_cover 5 (bnUpArr V c) (fun t _ => flushed1_eq V c t) fun i => by
    refine ⟨t1_0, flush1_5 t1_0, ?_⟩
    rw [mem_blk1]
    obtain ⟨e00, e01, e10, e11, e20, e21, e30, e31, e40, e41, e50, e51⟩ := idx_facts1 t1_0
    have h0 : (i 0).val < 512 := (i 0).isLt
    have h1 : (i 1).val < 1024 := (i 1).isLt
    intro a
    match a with
    | ⟨0, _⟩ => show win1_5.index t1_0 (0 : Fin 2) * 512 ≤ (i 0).val ∧ (i 0).val < win1_5.index t1_0 (0 : Fin 2) * 512 + 512; omega
    | ⟨1, _⟩ => show win1_5.index t1_0 (1 : Fin 2) * 1024 ≤ (i 1).val ∧ (i 1).val < win1_5.index t1_0 (1 : Fin 2) * 1024 + 1024; omega

end Cert.KernelIdeal.KerValue

end
-- ==== Proof.KerRegion0.lean ====
/-
  The first region's output array — the pooled activations — after the region.

  The first kernel runs at 16 grid points `(b, st)`: batch `b` of 8, sequence tile `st` of 2 (2048 rows each). At a point it
  reads rows `[2048 st, 2048 st + 2048)` of batch `b`, the whole transposed weights and the bias row, and writes back pooled
  rows `[32 st, 32 st + 32)` of batch `b`. Window `pl` of the tile is window `32 st + pl` of the sequence, and its element `w`
  is sequence position `2048 st + 64 pl + w = 64 (32 st + pl) + w`: so every written block is a block of ONE function of the
  three arrays, `poolArr`, and the 16 blocks tile the `8 × 64 × 256` array.
-/
import proofs.«119483_j28656021799561_2_alg».proof.Proof.Gen.KernelIdeal.Frame
import proofs.«119483_j28656021799561_2_alg».proof.Proof.KerDownPool
import proofs.«119483_j28656021799561_2_alg».proof.Proof.KerRegion1
import Idealize.ShloMosaic.Lib.Pipeline.Value

set_option maxRecDepth 16384

noncomputable section

namespace Cert.KernelIdeal.KerValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open scoped BigOperators

variable (V : (c : Dev nD) → (b : Ref sig .tc) → Buf (Elt Ideal) ((c : Thread nD τ).loc b))

/-- The origin of a rank-3 array. -/
theorem off3_zero : (![0, 0, 0] : Fin 3 → Nat) = fun _ => 0 := funext fun a => by fin_cases a <;> rfl

/-- The pooled array as one function of the three arrays the first region reads: at `(b, p, c)` the clipped maximum over
    window `p` of batch `b`'s projected rows. -/
def poolArr (A0 : S8x4096x1024.Idx → EReal) (A1 : S1024x256.Idx → EReal) (A2 : S1x256.Idx → EReal) : S8x64x256.Idx → EReal := fun i =>
  max ((Finset.univ : Finset (Fin 64)).fold max Cert.Spec.negInf
      (fun w => (∑ k : Fin 1024, A0 (ix3 (⟨(i 0).val, (i 0).isLt⟩ : Fin 8) (Cert.Spec.seqPos ⟨(i 1).val, (i 1).isLt⟩ w) k)
                    * A1 (ix2 k (⟨(i 2).val, (i 2).isLt⟩ : Fin 256)))
                + A2 (ix2 (0 : Fin 1) (⟨(i 2).val, (i 2).isLt⟩ : Fin 256)))) Cert.Spec.zeroLit

/-- The printed index maps over the 16 grid points: the rows window moves with the output window on the batch and
    sequence-tile axes, the weights and the bias stay at the origin, and the output's block indices stay in range. -/
theorem idx_facts0 : ∀ t : Fin cfg0.N,
    win0_0.index t (0 : Fin 3) = win0_3.index t (0 : Fin 3)
    ∧ win0_0.index t (1 : Fin 3) = win0_3.index t (1 : Fin 3)
    ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (2 : Fin 3) = 0
    ∧ win0_3.index t (0 : Fin 3) ≤ 7 ∧ win0_3.index t (1 : Fin 3) ≤ 1 :=
  (by decide +kernel : ∀ t : Fin grid0.N, _)

/-- Every block of the pooled array is some point's. -/
theorem idx_onto0 : ∀ (q0 : Fin 8) (q1 : Fin 2), ∃ t : Fin cfg0.N, win0_3.index t = ![q0.val, q1.val, 0] :=
  (by decide +kernel : ∀ (q0 : Fin 8) (q1 : Fin 2), ∃ t : Fin grid0.N, win0_3.index t = ![q0.val, q1.val, 0])

set_option backward.isDefEq.respectTransparency.types false in
/-- WHAT POINT `t` WRITES BACK is block `t` of the pooled array's function of the three arrays as the region finds them. -/
theorem flushed0_eq (c : Dev nD) (t : Fin cfg0.N) :
    (dat0 V c).flushed 3 t = ((cfg0.win 3).blk t).view.read (Elt Ideal) (poolArr (V c main_arg0) (V c main_v1) (V c main_v2)) := by
  show (cfg0.win 3).cut (grid0.coords t) ((dat0 V c).after 3 t) = _
  rw [after0_3]
  unfold out0_3
  rw [View.canon_unit_zero off3_zero]
  simp only [View.ld_unit_zero (S := S1x2048x1024) off3_zero, View.ld_unit_zero (S := S1024x256) off2_zero,
    View.ld_unit_zero (S := S1x256) off2_zero]
  obtain ⟨e00, e01, e02, e10, e11, e20, e21, e32, l30, l31⟩ := idx_facts0 t
  funext j
  obtain ⟨u, pl, cc, rfl⟩ : ∃ (u : Fin 1) (pl : Fin 32) (cc : Fin 256), j = ix3 u pl cc := ⟨j 0, j 1, j 2, eq_ix3 j⟩
  show k0_pay1 (iblk0 V c 0 t) (iblk0 V c 1 t) (iblk0 V c 2 t) (ix3 u pl cc)
    = poolArr (V c main_arg0) (V c main_v1) (V c main_v2) (((cfg0.win 3).blk t).view.emb (ix3 u pl cc))
  refine (pay_downPool (iblk0 V c 0 t) (iblk0 V c 1 t) (iblk0 V c 2 t) u pl cc).trans ?_
  unfold poolArr
  refine congrArg₂ max (congrArg (fun f : Fin 64 → EReal => Finset.fold max _ f (Finset.univ : Finset (Fin 64))) (funext fun (w : Fin 64) => ?_)) rfl
  refine congrArg₂ (· + ·) (Finset.sum_congr rfl fun k _ => congrArg₂ (· * ·) ?_ ?_) ?_
  · show V c main_arg0 (((cfg0.win 0).blk t).view.emb (ix3 (0 : Fin 1) (blockRow pl w) k)) = V c main_arg0 _
    refine congrArg _ (funext fun a => Fin.ext ?_)
    match a with
    | ⟨0, _⟩ => show win0_0.index t (0 : Fin 3) * 1 + 1 * 0 = win0_3.index t (0 : Fin 3) * 1 + 1 * u.val; have := u.isLt; omega
    | ⟨1, _⟩ => show win0_0.index t (1 : Fin 3) * 2048 + 1 * (64 * pl.val + w.val) = 64 * (win0_3.index t (1 : Fin 3) * 32 + 1 * pl.val) + w.val; omega
    | ⟨2, _⟩ => show win0_0.index t (2 : Fin 3) * 1024 + 1 * k.val = k.val; omega
  · show V c main_v1 (((cfg0.win 1).blk t).view.emb (ix2 k cc)) = V c main_v1 _
    refine congrArg _ (funext fun a => Fin.ext ?_)
    match a with
    | ⟨0, _⟩ => show win0_1.index t (0 : Fin 2) * 1024 + 1 * k.val = k.val; omega
    | ⟨1, _⟩ => show win0_1.index t (1 : Fin 2) * 256 + 1 * cc.val = win0_3.index t (2 : Fin 3) * 256 + 1 * cc.val; omega
  · show V c main_v2 (((cfg0.win 2).blk t).view.emb (ix2 (0 : Fin 1) cc)) = V c main_v2 _
    refine congrArg _ (funext fun a => Fin.ext ?_)
    match a with
    | ⟨0, _⟩ => show win0_2.index t (0 : Fin 2) * 1 + 1 * 0 = 0; omega
    | ⟨1, _⟩ => show win0_2.index t (1 : Fin 2) * 256 + 1 * cc.val = win0_3.index t (2 : Fin 3) * 256 + 1 * cc.val; omega

/-- An index of the pooled array is in point `t`'s block iff each coordinate is in the block's range. -/
theorem mem_blk0 (t : Fin cfg0.N) (i : S8x64x256.Idx) :
    i ∈ ((cfg0.win 3).blk t).view.set ↔ ∀ a : Fin 3, win0_3.index t a * S1x32x256.size a ≤ (i a).val ∧ (i a).val < win0_3.index t a * S1x32x256.size a + S1x32x256.size a := by
  show i ∈ ((View.whole main_v8).slice (win0_3.rect t)).set ↔ _
  rw [View.set_slice_whole, Rect.mem_set_unit]
  exact Iff.rfl

/-- THE POOLED ARRAY AFTER THE FIRST REGION: the 16 written blocks tile it, each a block of the one function. -/
theorem final0 (c : Dev nD) : (dat0 V c).arrAt 3 cfg0.N = poolArr (V c main_arg0) (V c main_v1) (V c main_v2) :=
  (dat0 V c).arrAt_eq_of_cover 3 (poolArr (V c main_arg0) (V c main_v1) (V c main_v2)) (fun t _ => flushed0_eq V c t) fun i => by
    have h0 : (i 0).val < 8 := (i 0).isLt
    have h1 : (i 1).val < 64 := (i 1).isLt
    have h2 : (i 2).val < 256 := (i 2).isLt
    obtain ⟨t, ht⟩ := idx_onto0 ⟨(i 0).val, h0⟩ ⟨(i 1).val / 32, by omega⟩
    have q0 : win0_3.index t (0 : Fin 3) = (i 0).val := congrFun ht 0
    have q1 : win0_3.index t (1 : Fin 3) = (i 1).val / 32 := congrFun ht 1
    have q2 : win0_3.index t (2 : Fin 3) = 0 := congrFun ht 2
    refine ⟨t, flush0_3 t, ?_⟩
    rw [mem_blk0]
    intro a
    match a with
    | ⟨0, _⟩ => show win0_3.index t (0 : Fin 3) * 1 ≤ (i 0).val ∧ (i 0).val < win0_3.index t (0 : Fin 3) * 1 + 1; omega
    | ⟨1, _⟩ => show win0_3.index t (1 : Fin 3) * 32 ≤ (i 1).val ∧ (i 1).val < win0_3.index t (1 : Fin 3) * 32 + 32; omega
    | ⟨2, _⟩ => show win0_3.index t (2 : Fin 3) * 256 ≤ (i 2).val ∧ (i 2).val < win0_3.index t (2 : Fin 3) * 256 + 256; omega

end Cert.KernelIdeal.KerValue

end
-- ==== Proof.KerBoundary.lean ====
/-
  The boundaries of the program, read back to the argument arrays.

  Before the first region the host transposes the two weight matrices (their change of float format is the identity at
  the extended reals) and gives the four vectors a leading unit axis; between the regions it flattens the pooled array's
  batch and row axes into 512 rows; after the second region it splits the 512 rows back into 8 batches of 64. Each region
  leaves in its output array the value the blocks-to-array step names and touches nothing else. Composing the five
  stretches, the result buffer ends at ONE term of the seven argument arrays, `kerVal`.
-/
import proofs.«119483_j28656021799561_2_alg».proof.Proof.Gen.KernelIdeal.Frame
import proofs.«119483_j28656021799561_2_alg».proof.Proof.KerRegion0
import proofs.«119483_j28656021799561_2_alg».proof.Proof.KerRegion1
import Idealize.ShloMosaic.Lib.StableHlo.Run
import Idealize.ShloMosaic.Lib.Pipeline.Value

set_option maxRecDepth 16384

noncomputable section

namespace Cert.KernelIdeal.KerValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Idealize.ShloMosaic.StableHlo

variable (m : (ℓ : Loc nD τ sig) → Buf (Elt Ideal) ℓ) (ρ : Dev nD → PrngReg)

/-! ## Before the first region -/

theorem V1_arg0 (c : Dev nD) : V1 m ρ c main_arg0 = m ((c : Thread nD τ).loc main_arg0) := by
  show StableHlo.after hostOps0 (W0 m ρ c) (Proc.devRef .tc main_arg0) = _
  after_results

theorem V1_v1 (c : Dev nD) : (V1 m ρ c main_v1 : FVec Ideal S1024x256 .bf16)
    = truncf (F := Ideal) .bf16 (transpose S1024x256 [1, 0] (m ((c : Thread nD τ).loc main_arg1) : FVec Ideal S256x1024 .f32) transposes_S256x1024_S1024x256_1_0) bitsLt_bf16_f32 := by
  show StableHlo.after hostOps0 (W0 m ρ c) (Proc.devRef .tc main_v1) = _
  after_results

theorem V1_v2 (c : Dev nD) : (V1 m ρ c main_v2 : S1x256.Idx → EReal)
    = shapeCast S1x256 (m ((c : Thread nD τ).loc main_arg2) : S256.Idx → EReal) shapeCasts_S256_S1x256 := by
  show StableHlo.after hostOps0 (W0 m ρ c) (Proc.devRef .tc main_v2) = _
  after_results
  rfl

theorem W1_v4 (c : Dev nD) : (W1 m ρ c (Proc.devRef .tc main_v4) : FVec Ideal S256x1024 .bf16)
    = truncf (F := Ideal) .bf16 (transpose S256x1024 [1, 0] (m ((c : Thread nD τ).loc main_arg5) : FVec Ideal S1024x256 .f32) transposes_S1024x256_S256x1024_1_0) bitsLt_bf16_f32 := by
  show StableHlo.after hostOps0 (W0 m ρ c) (Proc.devRef .tc main_v4) = _
  after_results

theorem W1_v5 (c : Dev nD) : (W1 m ρ c (Proc.devRef .tc main_v5) : S1x1024.Idx → EReal)
    = shapeCast S1x1024 (m ((c : Thread nD τ).loc main_arg6) : S1024.Idx → EReal) shapeCasts_S1024_S1x1024 := by
  show StableHlo.after hostOps0 (W0 m ρ c) (Proc.devRef .tc main_v5) = _
  after_results
  rfl

theorem W1_v6 (c : Dev nD) : (W1 m ρ c (Proc.devRef .tc main_v6) : S1x256.Idx → EReal)
    = shapeCast S1x256 (m ((c : Thread nD τ).loc main_arg3) : S256.Idx → EReal) shapeCasts_S256_S1x256 := by
  show StableHlo.after hostOps0 (W0 m ρ c) (Proc.devRef .tc main_v6) = _
  after_results
  rfl

theorem W1_v7 (c : Dev nD) : (W1 m ρ c (Proc.devRef .tc main_v7) : S1x256.Idx → EReal)
    = shapeCast S1x256 (m ((c : Thread nD τ).loc main_arg4) : S256.Idx → EReal) shapeCasts_S256_S1x256 := by
  show StableHlo.after hostOps0 (W0 m ρ c) (Proc.devRef .tc main_v7) = _
  after_results
  rfl

/-! ## After the first region -/

theorem W2_v8 (c : Dev nD) : W2 m ρ c (Proc.devRef .tc main_v8)
    = poolArr (V1 m ρ c main_arg0) (V1 m ρ c main_v1) (V1 m ρ c main_v2) :=
  (W2_arr m ρ c 3).trans (final0 (V1 m ρ) c)

/-! ## Between the regions -/

theorem V3_v9 (c : Dev nD) : (V3 m ρ c main_v9 : S512x256.Idx → EReal)
    = shapeCast S512x256 (W2 m ρ c (Proc.devRef .tc main_v8) : S8x64x256.Idx → EReal) shapeCasts_S8x64x256_S512x256 := by
  show StableHlo.after hostOps1 (W2 m ρ c) (Proc.devRef .tc main_v9) = _
  after_results
  rfl

theorem V3_v4 (c : Dev nD) : V3 m ρ c main_v4 = W1 m ρ c (Proc.devRef .tc main_v4) := by
  show StableHlo.after hostOps1 (W2 m ρ c) (Proc.devRef .tc main_v4) = _
  after_results
  exact W2_of_ne m ρ c main_v4 (by decide)

theorem V3_v5 (c : Dev nD) : V3 m ρ c main_v5 = W1 m ρ c (Proc.devRef .tc main_v5) := by
  show StableHlo.after hostOps1 (W2 m ρ c) (Proc.devRef .tc main_v5) = _
  after_results
  exact W2_of_ne m ρ c main_v5 (by decide)

theorem V3_v6 (c : Dev nD) : V3 m ρ c main_v6 = W1 m ρ c (Proc.devRef .tc main_v6) := by
  show StableHlo.after hostOps1 (W2 m ρ c) (Proc.devRef .tc main_v6) = _
  after_results
  exact W2_of_ne m ρ c main_v6 (by decide)

theorem V3_v7 (c : Dev nD) : V3 m ρ c main_v7 = W1 m ρ c (Proc.devRef .tc main_v7) := by
  show StableHlo.after hostOps1 (W2 m ρ c) (Proc.devRef .tc main_v7) = _
  after_results
  exact W2_of_ne m ρ c main_v7 (by decide)

/-! ## After the second region, and after the last stretch -/

theorem W4_v10 (c : Dev nD) : W4 m ρ c (Proc.devRef .tc main_v10) = bnUpArr (V3 m ρ) c :=
  (W4_arr m ρ c 5).trans (final1 (V3 m ρ) c)

theorem W5_v11 (c : Dev nD) : (W5 m ρ c (Proc.devRef .tc main_v11) : S8x64x1024.Idx → EReal)
    = shapeCast S8x64x1024 (W4 m ρ c (Proc.devRef .tc main_v10) : S512x1024.Idx → EReal) shapeCasts_S512x1024_S8x64x1024 := by
  show StableHlo.after hostOps2 (W4 m ρ c) (Proc.devRef .tc main_v11) = _
  after_results
  rfl

/-! ## The result as one term of the argument arrays -/

/-- The program's value: the pooled array of the rows, the transposed down-projection weights and the bias row; flattened to
    512 rows; the second body's value of it with the scale and shift rows, the transposed up-projection weights and the
    bias row; split back into 8 batches of 64 rows. -/
def kerVal (a0 : FVec Ideal S8x4096x1024 .f32) (a1 : FVec Ideal S256x1024 .f32) (a2 a3 a4 : FVec Ideal S256 .f32)
    (a5 : FVec Ideal S1024x256 .f32) (a6 : FVec Ideal S1024 .f32) : S8x64x1024.Idx → EReal :=
  shapeCast S8x64x1024
    (k1_pay1 (F := Ideal)
      (shapeCast S512x256
        (poolArr a0 (truncf (F := Ideal) .bf16 (transpose S1024x256 [1, 0] a1 transposes_S256x1024_S1024x256_1_0) bitsLt_bf16_f32)
          (shapeCast S1x256 a2 shapeCasts_S256_S1x256))
        shapeCasts_S8x64x256_S512x256)
      (shapeCast S1x256 a3 shapeCasts_S256_S1x256) (shapeCast S1x256 a4 shapeCasts_S256_S1x256)
      (truncf (F := Ideal) .bf16 (transpose S256x1024 [1, 0] a5 transposes_S1024x256_S256x1024_1_0) bitsLt_bf16_f32)
      (shapeCast S1x1024 a6 shapeCasts_S1024_S1x1024))
    shapeCasts_S512x1024_S8x64x1024

/-- THE RESULT BUFFER AT THE LAST BOUNDARY is that term of the arguments as launched. -/
theorem boundary_result (c : Dev nD) :
    W5 m ρ c (Proc.devRef .tc main_v11) = kerVal (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W5_v11 m ρ c).trans ?_
  rw [W4_v10]
  unfold bnUpArr kerVal
  rw [V3_v9, V3_v4, V3_v5, V3_v6, V3_v7, W2_v8, V1_arg0, V1_v1, V1_v2, W1_v4, W1_v5, W1_v6, W1_v7]

end Cert.KernelIdeal.KerValue

end
-- ==== Proof.KerBnUp.lean ====
/-
  The second kernel's body, read at an entry of the block it stores.

  On the whole `512 × 256` matrix of pooled rows the body takes each column's mean and biased variance over the 512 rows
  (a column sum divided by 512, twice), normalises every entry by them — `(x - mean) · rsqrt (var + ε) · γ + β` —, multiplies
  the normalised matrix by the transposed up-projection weights and adds the bias row. So entry `(r, d)` of the stored
  `512 × 1024` block is `Σ_c normed[r, c] · wᵀ[c, d] + bias[d]`: the product into the zero accumulator is the plain sum over
  `c`, the change of float format is the identity, and a one-row matrix broadcast over the rows reads its one row.
-/
import proofs.«119483_j28656021799561_2_alg».proof.Proof.Gen.KernelIdeal.Skeleton
import proofs.«119483_j28656021799561_2_alg».proof.Proof.LibMatmulPlain
import proofs.«119483_j28656021799561_2_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.KerValue

open Cert.KernelIdeal Cert.KernelIdeal.Gen
open Idealize.ShloMosaic Idealize.ShloMosaic.ValueIdx

/-- The mean of column `c` over the 512 rows. -/
def rowMean (x : FVec Ideal S512x256 .f32) (c : Fin 256) : EReal :=
  Ideal.div (∑ k : Fin 512, x (ix2 k c)) Cert.Spec.count

/-- The biased variance of column `c` over the 512 rows. -/
def rowVar (x : FVec Ideal S512x256 .f32) (c : Fin 256) : EReal :=
  Ideal.div (∑ k : Fin 512, (x (ix2 k c) - rowMean x c) * (x (ix2 k c) - rowMean x c)) Cert.Spec.count

/-- The normalised, scaled and shifted entry. -/
def rowNormed (x : FVec Ideal S512x256 .f32) (g b : FVec Ideal S1x256 .f32) (r : Fin 512) (c : Fin 256) : EReal :=
  (x (ix2 r c) - rowMean x c) * Ideal.rsqrt (rowVar x c + Cert.Spec.eps) * g (ix2 (0 : Fin 1) c) + b (ix2 (0 : Fin 1) c)

/-- The body's product contracts the left operand's columns with the right operand's rows, no batch axis. -/
theorem dot1_plain : dot_S512x256_S256x1024_S512x1024_1_0_0_1_n_n = DotDims.plain 512 256 1024 := rfl

/-- A reciprocal square root taken entry by entry. -/
theorem rsqrt_at {s : Shape} {φ : FTy} (v : FVec Ideal s φ) (i : s.Idx) : rsqrt v i = Ideal.rsqrt (v i) := rfl

set_option backward.isDefEq.respectTransparency.types false in
/-- A column sum kept as a one-row matrix, read at `(0, c)`. -/
theorem colSum_apply (v : FVec Ideal S512x256 .f32) (hφ : FKind.Formats .f32)
    (hacc : (0x00000000#32 : BitVec 32) = FKind.add.neutral .f32 hφ) (u : Fin 1) (c : Fin 256) :
    shapeCast S1x256 (multiReduction .add [0] S256 v 0x00000000#32 reduces_S512x256_S256 hφ hacc) shapeCasts_S256_S1x256 (ix2 u c)
      = ∑ k : Fin 512, v (ix2 k c) := by
  rw [shapeCast_a_1a_apply]
  refine (Ideal.multiReduction_add_single v _ reduces_S512x256_S256 hφ hacc (ix1 c)).trans ?_
  refine Finset.sum_congr rfl fun k _ => congrArg v ?_
  funext a; refine Fin.ext ?_
  match a with
  | ⟨0, _⟩ => rfl
  | ⟨1, _⟩ => rfl

set_option backward.isDefEq.respectTransparency.types false in
/-- ENTRY `(r, d)` OF THE STORED BLOCK: row `r` of the normalised matrix against column `d` of the weights, plus the bias. -/
theorem pay_bnUp (x0 : Vec Ideal S512x256 .f32) (x1 x2 : Vec Ideal S1x256 .f32) (x3 : Vec Ideal S256x1024 .bf16) (x4 : Vec Ideal S1x1024 .f32)
    (r : Fin 512) (d : Fin 1024) :
    k1_pay1 (F := Ideal) x0 x1 x2 x3 x4 (ix2 r d)
      = (∑ c : Fin 256, rowNormed x0 x1 x2 r c * x3 (ix2 c d)) + x4 (ix2 (0 : Fin 1) d) := by
  unfold k1_pay1
  dsimp only
  rw [addf_apply, dot1_plain]
  refine congrArg₂ (· + ·) ((Cert.Lib.matmul_plain_zero_apply 512 256 1024 none _ _ r d).trans ?_) ?_
  · refine Finset.sum_congr rfl fun c _ => ?_
    simp only [truncf_apply, addf_apply, mulf_apply, subf_apply, divf_apply, broadcast_apply, broadcastTo_1b_ab_apply,
      shapeCast_self, rsqrt_at, colSum_apply]
    rw [colSum_apply, colSum_apply]
    simp only [mulf_apply, subf_apply, divf_apply, broadcast_apply, broadcastTo_1b_ab_apply]
    rw [colSum_apply]
    rfl
  · rw [broadcastTo_1b_ab_apply, shapeCast_self]

end Cert.KernelIdeal.KerValue

end
-- ==== Proof.KerRows.lean ====
/-
  The 512 pooled rows, as 8 batches of 64.

  Row `64 b + p` of the flattened `512 × 256` matrix is pooled row `p` of batch `b`; a sum over the 512 rows is the double sum
  over batches and pooled rows. Addition of extended reals is commutative and associative, so the regrouping needs nothing
  of the summands.
-/
import Idealize.ShloMosaic.Lib.ValueIdx

open scoped BigOperators

namespace Cert.Rows

/-- Row `64 b + p` of the 512 flattened rows. -/
def flatRow (b : Fin 8) (p : Fin 64) : Fin 512 := ⟨64 * b.val + p.val, by have := b.isLt; have := p.isLt; omega⟩

/-- Batch and pooled row of a flattened row, and back. -/
def rowEquiv : Fin 8 × Fin 64 ≃ Fin 512 where
  toFun x := flatRow x.1 x.2
  invFun k := (⟨k.val / 64, by have := k.isLt; omega⟩, ⟨k.val % 64, Nat.mod_lt _ (by decide)⟩)
  left_inv x := by
    obtain ⟨b, p⟩ := x
    refine Prod.ext (Fin.ext ?_) (Fin.ext ?_)
    · show (64 * b.val + p.val) / 64 = b.val
      have := p.isLt; omega
    · show (64 * b.val + p.val) % 64 = p.val
      have := p.isLt; omega
  right_inv k := Fin.ext (by
    show 64 * (k.val / 64) + k.val % 64 = k.val
    omega)

/-- A sum over the 512 rows is the sum over the 8 batches of the sums over their 64 pooled rows. -/
theorem sum_rows {M : Type*} [AddCommMonoid M] (f : Fin 512 → M) :
    ∑ k : Fin 512, f k = ∑ b : Fin 8, ∑ p : Fin 64, f (flatRow b p) := by
  rw [← Fintype.sum_prod_type' (fun b p => f (flatRow b p))]
  exact (Fintype.sum_equiv rowEquiv (fun x => f (flatRow x.1 x.2)) f (fun _ => rfl)).symm

end Cert.Rows
-- ==== Proof.KerBridge.lean ====
/-
  The kernel's value is the specification, index by index.

  Entry `(b, p, d)` of the result is entry `(64 b + p, d)` of the second body's `512 × 1024` block, that is
  `Σ_c normed[64 b + p, c] · Wuᵀ[c, d] + bu[d]`. Row `64 b + p` of the flattened pooled matrix is pooled row `p` of batch `b`; a
  column's sum over the 512 rows is the double sum over batches and pooled rows, so the column statistics are the channel
  statistics; a transposed matrix at `(c, d)` is the matrix at `(d, c)`; a vector given a leading unit axis reads its entry.
  Only the commutativity and associativity of the sum are used: nothing is asked of the entries.
-/
import proofs.«119483_j28656021799561_2_alg».proof.Proof.KerBoundary
import proofs.«119483_j28656021799561_2_alg».proof.Proof.KerBnUp
import proofs.«119483_j28656021799561_2_alg».proof.Proof.KerRows
import proofs.«119483_j28656021799561_2_alg».proof.Proof.Spec
import Idealize.ShloMosaic.Lib.ValueIdx
import Idealize.ShloMosaic.Lib.ValueLayout
import Idealize.ShloMosaic.Lib.Pipeline.Value

set_option maxRecDepth 16384

noncomputable section

open scoped BigOperators

namespace Cert.KernelIdeal.KerValue

open Cert.KernelIdeal Cert.KernelIdeal.Gen Cert.Rows
open Idealize.ShloMosaic Idealize.ShloMosaic.ValueIdx

/-! ## The flattened matrix of pooled rows -/

/-- Row `64 b + p` of the flattened matrix is entry `(b, p)` of the array. -/
theorem flat_apply (A : S8x64x256.Idx → EReal) (b : Fin 8) (p : Fin 64) (c : Fin 256) :
    shapeCast S512x256 A shapeCasts_S8x64x256_S512x256 (ix2 (flatRow b p) c) = A (ix3 b p c) :=
  shapeCast_apply A _ (ix2 (flatRow b p) c) (ix3 b p c) (by
    rw [Shape.rowMajor_val_three, Shape.rowMajor_val_two]
    show (b.val * 64 + p.val) * 256 + c.val = (64 * b.val + p.val) * 256 + c.val
    omega)

section Stats

variable (X : FVec Ideal S512x256 .f32) (P : Fin 8 → Fin 64 → Fin 256 → EReal)
  (hXP : ∀ b p c, X (ix2 (flatRow b p) c) = P b p c)
include hXP

/-- A column's mean over the 512 rows is the channel's mean over batches and pooled rows. -/
theorem rowMean_eq (c : Fin 256) : rowMean X c = Cert.Spec.chanMean P c := by
  unfold rowMean Cert.Spec.chanMean
  refine congrArg (fun s => Ideal.div s Cert.Spec.count) ?_
  refine (sum_rows _).trans (Finset.sum_congr rfl fun b _ => Finset.sum_congr rfl fun p _ => hXP b p c)

/-- A column's biased variance over the 512 rows is the channel's. -/
theorem rowVar_eq (c : Fin 256) : rowVar X c = Cert.Spec.chanVar P c := by
  unfold rowVar Cert.Spec.chanVar
  refine congrArg (fun s => Ideal.div s Cert.Spec.count) ?_
  refine (sum_rows _).trans (Finset.sum_congr rfl fun b _ => Finset.sum_congr rfl fun p _ => ?_)
  rw [hXP b p c, rowMean_eq X P hXP c]

/-- The normalised entry of row `64 b + p` is the normalised activation at `(b, p)`. -/
theorem rowNormed_eq (g β : FVec Ideal S1x256 .f32) (γ' β' : FVec Ideal S256 .f32)
    (hg : ∀ c, g (ix2 (0 : Fin 1) c) = γ' (ix1 c)) (hβ : ∀ c, β (ix2 (0 : Fin 1) c) = β' (ix1 c))
    (b : Fin 8) (p : Fin 64) (c : Fin 256) :
    rowNormed X g β (flatRow b p) c = Cert.Spec.normed P γ' β' b p c := by
  unfold rowNormed Cert.Spec.normed
  rw [hXP b p c, rowMean_eq X P hXP c, rowVar_eq X P hXP c, hg c, hβ c]

end Stats

/-! ## The pooled array is the pooled activation -/

theorem poolArr_apply (a0 : FVec Ideal S8x4096x1024 .f32) (a1 : FVec Ideal S256x1024 .f32) (a2 : FVec Ideal S256 .f32)
    (b : Fin 8) (p : Fin 64) (c : Fin 256) :
    poolArr a0 (truncf (F := Ideal) .bf16 (transpose S1024x256 [1, 0] a1 transposes_S256x1024_S1024x256_1_0) bitsLt_bf16_f32)
        (shapeCast S1x256 a2 shapeCasts_S256_S1x256) (ix3 b p c)
      = Cert.Spec.pooled a0 a1 a2 b p c := by
  unfold poolArr Cert.Spec.pooled Cert.Spec.down
  refine congrArg₂ max (congrArg (fun f : Fin 64 → EReal => Finset.fold max _ f (Finset.univ : Finset (Fin 64))) (funext fun (w : Fin 64) => ?_)) rfl
  refine congrArg₂ (· + ·) (Finset.sum_congr rfl fun k _ => congrArg₂ (· * ·) rfl ?_) ?_
  · show truncf (F := Ideal) .bf16 (transpose S1024x256 [1, 0] a1 transposes_S256x1024_S1024x256_1_0) bitsLt_bf16_f32 (ix2 k c) = a1 (ix2 c k)
    rw [truncf_apply, transpose_ix2_apply]
  · show shapeCast S1x256 a2 shapeCasts_S256_S1x256 (ix2 (0 : Fin 1) c) = a2 (ix1 c)
    rw [shapeCast_a_1a_apply]

/-! ## The result -/

/-- THE KERNEL'S VALUE IS THE SPECIFICATION. -/
theorem kerVal_eq (a0 : FVec Ideal S8x4096x1024 .f32) (a1 : FVec Ideal S256x1024 .f32) (a2 a3 a4 : FVec Ideal S256 .f32)
    (a5 : FVec Ideal S1024x256 .f32) (a6 : FVec Ideal S1024 .f32) :
    kerVal a0 a1 a2 a3 a4 a5 a6 = Cert.Spec.result a0 a1 a2 a3 a4 a5 a6 := by
  funext i
  obtain ⟨b, p, d, rfl⟩ : ∃ (b : Fin 8) (p : Fin 64) (d : Fin 1024), i = ix3 b p d := ⟨i 0, i 1, i 2, eq_ix3 i⟩
  rw [Cert.Spec.result_apply]
  unfold kerVal
  rw [shapeCast_apply _ _ (ix3 b p d) (ix2 (flatRow b p) d) (by
    rw [Shape.rowMajor_val_two, Shape.rowMajor_val_three]
    show (64 * b.val + p.val) * 1024 + d.val = (b.val * 64 + p.val) * 1024 + d.val
    omega)]
  rw [pay_bnUp]
  unfold Cert.Spec.up
  refine congrArg₂ (· + ·) (Finset.sum_congr rfl fun c _ => congrArg₂ (· * ·) ?_ ?_) ?_
  · exact rowNormed_eq _ (Cert.Spec.pooled a0 a1 a2) (fun b p c => (flat_apply _ b p c).trans (poolArr_apply a0 a1 a2 b p c)) _ _ a3 a4
      (fun c => shapeCast_a_1a_apply a3 _ 0 c) (fun c => shapeCast_a_1a_apply a4 _ 0 c) b p c
  · rw [truncf_apply, transpose_ix2_apply]
  · rw [shapeCast_a_1a_apply]

end Cert.KernelIdeal.KerValue

end
-- ==== Proof.KerValue.lean ====
/-
  The idealized kernel's run, with its result named.

  Every weakly fair execution of the two-region program terminates; the result buffer ends at the specification's function
  of the argument arrays as launched, and the arguments end as launched.
-/
import proofs.«119483_j28656021799561_2_alg».proof.Proof.KerRun
import proofs.«119483_j28656021799561_2_alg».proof.Proof.KerBridge

set_option maxRecDepth 16384

noncomputable section

namespace Cert.KernelIdeal.KerValue

open Cert.KernelIdeal Cert.KernelIdeal.Gen
open Idealize.ShloMosaic Idealize.ShloMosaic.TcCoe Idealize.SL.Sem

/-- THE KERNEL'S RUN at the extended reals. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v11) = Cert.Spec.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono
    (fun r h c => ⟨(h c).1.trans ((boundary_result m ρ c).trans (kerVal_eq _ _ _ _ _ _ _)), (h c).2⟩)
    (run_boundary m ρ)

end Cert.KernelIdeal.KerValue

end
-- ==== Proof.RefRun.lean ====
/-
  The reference program's run, with its result stated by the stages of RefReadP.lean: every weakly fair execution of
  @main terminates with the result buffer at `val_main_v35` of the seven argument arrays, and the arguments unchanged.

  The pooled activation (buffer `main_v6`: the window maximum clipped at zero) is read by five later operations, so
  the result as ONE closed term of the arguments repeats it five times. Here the list of 44 operations is cut after
  the tenth, the one that writes `main_v6`: the contents after the first ten operations are read once — `main_v6` is
  the stage `val_main_v6` of the first three arguments, and the last four arguments are still what they were — and
  the other 34 operations are then read over those contents as over an arbitrary valuation.
-/
import proofs.«119483_j28656021799561_2_alg».proof.Proof.RefReadP

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.ReferenceIdeal.ValueP Cert.ReferenceIdeal.ReadP

variable {F : FTy → Type} [FloatOps F]

/-- Running two lists of operations one after the other is running their concatenation. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons]; exact ih _

/-- The first ten operations: the down-projection with its bias, the window maximum and the clip at zero, which writes
    the pooled activation `main_v6`. -/
abbrev ops₁ : List (HloOp τ sig (Elt F)) :=
  [ binary main_arg0 main_arg1 main_v0 ((fun l r => Host.dotGeneral dot_S8x4096x1024_S256x1024_S8x4096x256_2_1_01_0_n_n none l r) : (⟨S8x4096x1024, .f32⟩ : BufTy).Contents (Elt F) → (⟨S256x1024, .f32⟩ : BufTy).Contents (Elt F) → (⟨S8x4096x256, .f32⟩ : BufTy).Contents (Elt F)),
    unary main_arg2 main_v1 (broadcastInDim S1x1x256 ![2] bcast_S256_S1x1x256_2 : (⟨S256, .f32⟩ : BufTy).Contents (Elt F) → (⟨S1x1x256, .f32⟩ : BufTy).Contents (Elt F)),
    unary main_v1 main_v2 (broadcastInDim S8x4096x256 ![0, 1, 2] bcast_S1x1x256_S8x4096x256_0_1_2 : (⟨S1x1x256, .f32⟩ : BufTy).Contents (Elt F) → (⟨S8x4096x256, .f32⟩ : BufTy).Contents (Elt F)),
    binary main_v0 main_v2 main_v3 (addf : (⟨S8x4096x256, .f32⟩ : BufTy).Contents (Elt F) → (⟨S8x4096x256, .f32⟩ : BufTy).Contents (Elt F) → (⟨S8x4096x256, .f32⟩ : BufTy).Contents (Elt F)),
    reshape main_v3 main_v4 rfl shapeCasts_S8x4096x256_S8x64x64x256,
    nullary main_cst (constant S_ .f32 0xFF800000#32),
    binary main_v4 main_cst main_v5 ((fun x v => Host.reduce FloatOps.maximumf x v reducesTo_S8x64x64x256_S8x64x256_d2 h_S_) : (⟨S8x64x64x256, .f32⟩ : BufTy).Contents (Elt F) → (⟨S_, .f32⟩ : BufTy).Contents (Elt F) → (⟨S8x64x256, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S8x64x256, .f32⟩) main_call0_v0) (broadcastInDim S8x64x256 ![] bcast_S_S8x64x256),
    TRef.binary (TRef.of (T := ⟨S8x64x256, .f32⟩) main_v5) (TRef.of (T := ⟨S8x64x256, .f32⟩) main_call0_v0) (TRef.of (T := ⟨S8x64x256, .f32⟩) main_v6) maximumf ]

/-- The other 34 operations: the channel statistics, the normalisation and the up-projection, all reading `main_v6`. -/
abbrev ops₂ : List (HloOp τ sig (Elt F)) :=
  [ nullary main_cst_0 (constant S_ .f32 0x00000000#32),
    binary main_v6 main_cst_0 main_v7 ((fun x v => Host.reduceAdd x v reducesTo_S8x64x256_S256_d0_1 h_S_) : (⟨S8x64x256, .f32⟩ : BufTy).Contents (Elt F) → (⟨S_, .f32⟩ : BufTy).Contents (Elt F) → (⟨S256, .f32⟩ : BufTy).Contents (Elt F)),
    nullary main_cst_1 (constant S_ .f32 0x44000000#32),
    unary main_cst_1 main_v8 (broadcastInDim S256 ![] bcast_S_S256 : (⟨S_, .f32⟩ : BufTy).Contents (Elt F) → (⟨S256, .f32⟩ : BufTy).Contents (Elt F)),
    binary main_v7 main_v8 main_v9 (Host.divf : (⟨S256, .f32⟩ : BufTy).Contents (Elt F) → (⟨S256, .f32⟩ : BufTy).Contents (Elt F) → (⟨S256, .f32⟩ : BufTy).Contents (Elt F)),
    unary main_v9 main_v10 (broadcastInDim S1x1x256 ![2] bcast_S256_S1x1x256_2 : (⟨S256, .f32⟩ : BufTy).Contents (Elt F) → (⟨S1x1x256, .f32⟩ : BufTy).Contents (Elt F)),
    unary main_v10 main_v11 (broadcastInDim S8x64x256 ![0, 1, 2] bcast_S1x1x256_S8x64x256_0_1_2 : (⟨S1x1x256, .f32⟩ : BufTy).Contents (Elt F) → (⟨S8x64x256, .f32⟩ : BufTy).Contents (Elt F)),
    binary main_v6 main_v11 main_v12 (subf : (⟨S8x64x256, .f32⟩ : BufTy).Contents (Elt F) → (⟨S8x64x256, .f32⟩ : BufTy).Contents (Elt F) → (⟨S8x64x256, .f32⟩ : BufTy).Contents (Elt F)),
    binary main_v12 main_v12 main_v13 (mulf : (⟨S8x64x256, .f32⟩ : BufTy).Contents (Elt F) → (⟨S8x64x256, .f32⟩ : BufTy).Contents (Elt F) → (⟨S8x64x256, .f32⟩ : BufTy).Contents (Elt F)),
    nullary main_cst_2 (constant S_ .f32 0x00000000#32),
    binary main_v13 main_cst_2 main_v14 ((fun x v => Host.reduceAdd x v reducesTo_S8x64x256_S256_d0_1 h_S_) : (⟨S8x64x256, .f32⟩ : BufTy).Contents (Elt F) → (⟨S_, .f32⟩ : BufTy).Contents (Elt F) → (⟨S256, .f32⟩ : BufTy).Contents (Elt F)),
    nullary main_cst_3 (constant S_ .f32 0x44000000#32),
    unary main_cst_3 main_v15 (broadcastInDim S256 ![] bcast_S_S256 : (⟨S_, .f32⟩ : BufTy).Contents (Elt F) → (⟨S256, .f32⟩ : BufTy).Contents (Elt F)),
    binary main_v14 main_v15 main_v16 (Host.divf : (⟨S256, .f32⟩ : BufTy).Contents (Elt F) → (⟨S256, .f32⟩ : BufTy).Contents (Elt F) → (⟨S256, .f32⟩ : BufTy).Contents (Elt F)),
    unary main_v9 main_v17 (broadcastInDim S1x1x256 ![2] bcast_S256_S1x1x256_2 : (⟨S256, .f32⟩ : BufTy).Contents (Elt F) → (⟨S1x1x256, .f32⟩ : BufTy).Contents (Elt F)),
    unary main_v17 main_v18 (broadcastInDim S8x64x256 ![0, 1, 2] bcast_S1x1x256_S8x64x256_0_1_2 : (⟨S1x1x256, .f32⟩ : BufTy).Contents (Elt F) → (⟨S8x64x256, .f32⟩ : BufTy).Contents (Elt F)),
    binary main_v6 main_v18 main_v19 (subf : (⟨S8x64x256, .f32⟩ : BufTy).Contents (Elt F) → (⟨S8x64x256, .f32⟩ : BufTy).Contents (Elt F) → (⟨S8x64x256, .f32⟩ : BufTy).Contents (Elt F)),
    nullary main_cst_4 (constant S_ .f32 0x3727C5AC#32),
    unary main_cst_4 main_v20 (broadcastInDim S256 ![] bcast_S_S256 : (⟨S_, .f32⟩ : BufTy).Contents (Elt F) → (⟨S256, .f32⟩ : BufTy).Contents (Elt F)),
    binary main_v16 main_v20 main_v21 (addf : (⟨S256, .f32⟩ : BufTy).Contents (Elt F) → (⟨S256, .f32⟩ : BufTy).Contents (Elt F) → (⟨S256, .f32⟩ : BufTy).Contents (Elt F)),
    unary main_v21 main_v22 (Host.rsqrt : (⟨S256, .f32⟩ : BufTy).Contents (Elt F) → (⟨S256, .f32⟩ : BufTy).Contents (Elt F)),
    unary main_v22 main_v23 (broadcastInDim S1x1x256 ![2] bcast_S256_S1x1x256_2 : (⟨S256, .f32⟩ : BufTy).Contents (Elt F) → (⟨S1x1x256, .f32⟩ : BufTy).Contents (Elt F)),
    unary main_v23 main_v24 (broadcastInDim S8x64x256 ![0, 1, 2] bcast_S1x1x256_S8x64x256_0_1_2 : (⟨S1x1x256, .f32⟩ : BufTy).Contents (Elt F) → (⟨S8x64x256, .f32⟩ : BufTy).Contents (Elt F)),
    binary main_v19 main_v24 main_v25 (mulf : (⟨S8x64x256, .f32⟩ : BufTy).Contents (Elt F) → (⟨S8x64x256, .f32⟩ : BufTy).Contents (Elt F) → (⟨S8x64x256, .f32⟩ : BufTy).Contents (Elt F)),
    unary main_arg3 main_v26 (broadcastInDim S1x1x256 ![2] bcast_S256_S1x1x256_2 : (⟨S256, .f32⟩ : BufTy).Contents (Elt F) → (⟨S1x1x256, .f32⟩ : BufTy).Contents (Elt F)),
    unary main_v26 main_v27 (broadcastInDim S8x64x256 ![0, 1, 2] bcast_S1x1x256_S8x64x256_0_1_2 : (⟨S1x1x256, .f32⟩ : BufTy).Contents (Elt F) → (⟨S8x64x256, .f32⟩ : BufTy).Contents (Elt F)),
    binary main_v25 main_v27 main_v28 (mulf : (⟨S8x64x256, .f32⟩ : BufTy).Contents (Elt F) → (⟨S8x64x256, .f32⟩ : BufTy).Contents (Elt F) → (⟨S8x64x256, .f32⟩ : BufTy).Contents (Elt F)),
    unary main_arg4 main_v29 (broadcastInDim S1x1x256 ![2] bcast_S256_S1x1x256_2 : (⟨S256, .f32⟩ : BufTy).Contents (Elt F) → (⟨S1x1x256, .f32⟩ : BufTy).Contents (Elt F)),
    unary main_v29 main_v30 (broadcastInDim S8x64x256 ![0, 1, 2] bcast_S1x1x256_S8x64x256_0_1_2 : (⟨S1x1x256, .f32⟩ : BufTy).Contents (Elt F) → (⟨S8x64x256, .f32⟩ : BufTy).Contents (Elt F)),
    binary main_v28 main_v30 main_v31 (addf : (⟨S8x64x256, .f32⟩ : BufTy).Contents (Elt F) → (⟨S8x64x256, .f32⟩ : BufTy).Contents (Elt F) → (⟨S8x64x256, .f32⟩ : BufTy).Contents (Elt F)),
    binary main_v31 main_arg5 main_v32 ((fun l r => Host.dotGeneral dot_S8x64x256_S1024x256_S8x64x1024_2_1_01_0_n_n none l r) : (⟨S8x64x256, .f32⟩ : BufTy).Contents (Elt F) → (⟨S1024x256, .f32⟩ : BufTy).Contents (Elt F) → (⟨S8x64x1024, .f32⟩ : BufTy).Contents (Elt F)),
    unary main_arg6 main_v33 (broadcastInDim S1x1x1024 ![2] bcast_S1024_S1x1x1024_2 : (⟨S1024, .f32⟩ : BufTy).Contents (Elt F) → (⟨S1x1x1024, .f32⟩ : BufTy).Contents (Elt F)),
    unary main_v33 main_v34 (broadcastInDim S8x64x1024 ![0, 1, 2] bcast_S1x1x1024_S8x64x1024_0_1_2 : (⟨S1x1x1024, .f32⟩ : BufTy).Contents (Elt F) → (⟨S8x64x1024, .f32⟩ : BufTy).Contents (Elt F)),
    binary main_v32 main_v34 main_v35 (addf : (⟨S8x64x1024, .f32⟩ : BufTy).Contents (Elt F) → (⟨S8x64x1024, .f32⟩ : BufTy).Contents (Elt F) → (⟨S8x64x1024, .f32⟩ : BufTy).Contents (Elt F)) ]

theorem ops_split : (ops : List (HloOp τ sig (Elt F))) = ops₁ ++ ops₂ := rfl

/-- The clip at zero as the outlined function writes it, over variables: every cast is the identity. -/
theorem clip_casts (p1 p2 p3 q1 q2 q3 r1 r2 r3 s1 s2 s3)
    (A : (⟨S8x64x256, .f32⟩ : BufTy).Contents (Elt F)) (B : (⟨S_, .f32⟩ : BufTy).Contents (Elt F)) :
    ((TRef.of (T := ⟨S8x64x256, .f32⟩) main_v6 p1 p2 p3).toBuf (Val := Elt F)
      (maximumf ((TRef.of (T := ⟨S8x64x256, .f32⟩) main_v5 q1 q2 q3).ofBuf (Val := Elt F) A)
        ((TRef.of (T := ⟨S8x64x256, .f32⟩) main_call0_v0 r1 r2 r3).ofBuf (Val := Elt F)
          ((TRef.of (T := ⟨S8x64x256, .f32⟩) main_call0_v0 r1 r2 r3).toBuf (Val := Elt F)
            (broadcastInDim S8x64x256 ![] bcast_S_S8x64x256
              ((TRef.of (T := ⟨S_, .f32⟩) main_call0_cst s1 s2 s3).ofBuf (Val := Elt F)
                ((TRef.of (T := ⟨S_, .f32⟩) main_call0_cst s1 s2 s3).toBuf (Val := Elt F) B)))))) :
        (⟨S8x64x256, .f32⟩ : BufTy).Contents (Elt F))
      = maximumf A (broadcastInDim S8x64x256 ![] bcast_S_S8x64x256 B) := rfl

/-- After the first ten operations the buffer `main_v6` holds the pooled activation of the first three arguments. -/
theorem pooled_after (L : Valuation τ sig (Elt F)) :
    after (ops₁ (F := F)) L (Proc.devRef .tc main_v6)
      = val_main_v6 (F := F) (L (Proc.devRef .tc main_arg0)) (L (Proc.devRef .tc main_arg1)) (L (Proc.devRef .tc main_arg2)) := by
  after_results_simp
  refine (clip_casts _ _ _ _ _ _ _ _ _ _ _ _ _ _).trans ?_
  unfold val_main_v6 val_main_v5 val_main_v4 val_main_v3 val_main_v2 val_main_v1 val_main_v0 val_main_cst val_main_call0_v0 val_main_call0_cst
  rfl

/-- The first ten operations write none of the last four arguments. -/
theorem arg3_after (L : Valuation τ sig (Elt F)) :
    after (ops₁ (F := F)) L (Proc.devRef .tc main_arg3) = L (Proc.devRef .tc main_arg3) := by after_results_simp
theorem arg4_after (L : Valuation τ sig (Elt F)) :
    after (ops₁ (F := F)) L (Proc.devRef .tc main_arg4) = L (Proc.devRef .tc main_arg4) := by after_results_simp
theorem arg5_after (L : Valuation τ sig (Elt F)) :
    after (ops₁ (F := F)) L (Proc.devRef .tc main_arg5) = L (Proc.devRef .tc main_arg5) := by after_results_simp
theorem arg6_after (L : Valuation τ sig (Elt F)) :
    after (ops₁ (F := F)) L (Proc.devRef .tc main_arg6) = L (Proc.devRef .tc main_arg6) := by after_results_simp

set_option maxRecDepth 8192 in
/-- After all 44 operations the result buffer holds the last stage of the seven arguments. -/
theorem result_after (L : Valuation τ sig (Elt F)) :
    after (ops (F := F)) L (Proc.devRef .tc main_v35)
      = val_main_v35 (F := F) (L (Proc.devRef .tc main_arg0)) (L (Proc.devRef .tc main_arg1)) (L (Proc.devRef .tc main_arg2)) (L (Proc.devRef .tc main_arg3)) (L (Proc.devRef .tc main_arg4)) (L (Proc.devRef .tc main_arg5)) (L (Proc.devRef .tc main_arg6)) := by
  rw [ops_split, after_append]
  have h6 := pooled_after L
  have h3 := arg3_after L
  have h4 := arg4_after L
  have h5 := arg5_after L
  have h6' := arg6_after L
  generalize after (ops₁ (F := F)) L = W at h6 h3 h4 h5 h6' ⊢
  after_results_simp
  rw [h6, h3, h4, h5, h6']
  unfold val_main_v35 val_main_v34 val_main_v33 val_main_v32 val_main_v31 val_main_v30 val_main_v29 val_main_v28 val_main_v27 val_main_v26 val_main_v25 val_main_v24 val_main_v23 val_main_v22 val_main_v21 val_main_v20 val_main_cst_4 val_main_v19 val_main_v18 val_main_v17 val_main_v16 val_main_v15 val_main_cst_3 val_main_v14 val_main_cst_2 val_main_v13 val_main_v12 val_main_v11 val_main_v10 val_main_v9 val_main_v8 val_main_cst_1 val_main_v7 val_main_cst_0
  rfl

set_option maxRecDepth 8192 in
/-- On every device, for any float values, from any memory with zero counters: every weakly fair execution of
    @main terminates with the result at the last stage of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v35) = val_main_v35 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v35).trans (result_after (launchContents m c)),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl)⟩)
    (run_seq scopedRefs_eq scopedSems_eq defs main (fun _ => ops) main_eq (fun _ => ops_sub) m ρ)

end Cert.ReferenceIdeal.RefRun

end
-- ==== Proof.RefReduce.lean ====
/-
  The three reductions of the reference that are read by hand, at the literal shapes, over the extended reals.

  * The window maximum: a maximum over axis 2 of an `8 × 64 × 64 × 256` array, taken from an initial value, is at
    `(b, p, c)` the fold of `max` from that value over the 64 window elements `(b, p, w, c)`.
  * The channel sums: a sum over axes 0 and 1 of an `8 × 64 × 256` array is at `c` the initial value plus the double
    sum over `b < 8` and `p < 64` of the elements `(b, p, c)`. The indices that drop to `c` are exactly the
    `(b, p, c)`, one for each pair `(b, p)`.
-/
import Idealize.ShloMosaic.PureOps.Ideal.Laws
import Idealize.ShloMosaic.Lib.ValueIdx

noncomputable section

open scoped BigOperators

namespace Cert.ReferenceIdeal.RefReduce

open Idealize.ShloMosaic Idealize.ShloMosaic.ValueIdx

/-! ## The window maximum -/

/-- Inserting the window coordinate `w` on axis 2 into `(b, p, c)` gives `(b, p, w, c)`. -/
theorem lift_window (h : (⟨4, ![8, 64, 64, 256]⟩ : Shape).Reduces [2] ⟨3, ![8, 64, 256]⟩)
    (b : Fin 8) (p : Fin 64) (c : Fin 256) (w : Fin 64) :
    h.lift (ix3 b p c) w = ix4 b p w c :=
  funext fun a => Fin.ext (by
    match a with
    | ⟨0, _⟩ => rfl
    | ⟨1, _⟩ => rfl
    | ⟨2, _⟩ => rfl
    | ⟨3, _⟩ => rfl)

/-- The maximum over axis 2, from the initial value, at `(b, p, c)`. -/
theorem windowMax_apply (x : (⟨4, ![8, 64, 64, 256]⟩ : Shape).Idx → EReal) (init : (⟨0, ![]⟩ : Shape).Idx → EReal)
    (h' : (⟨4, ![8, 64, 64, 256]⟩ : Shape).ReducesTo [2] ⟨3, ![8, 64, 256]⟩) (hu : 0 < (⟨0, ![]⟩ : Shape).numel)
    (b : Fin 8) (p : Fin 64) (c : Fin 256) :
    Host.reduce (FloatOps.maximumf (F := Ideal) (φ := .f32)) x init h' hu (ix3 b p c)
      = (Finset.univ : Finset (Fin 64)).fold max (init ix0) (fun w => x (ix4 b p w c)) := by
  have h : (⟨4, ![8, 64, 64, 256]⟩ : Shape).Reduces [2] ⟨3, ![8, 64, 256]⟩ := by decide
  rw [Host.reduce_eq_fold_single (FloatOps.maximumf (F := Ideal) (φ := .f32)) x init h' h hu (ix3 b p c)]
  have e0 : Shape.Idx.first hu = ix0 := eq_ix0 _
  have ef : (x ∘ h.lift (ix3 b p c)) = fun w : Fin 64 => x (ix4 b p w c) :=
    funext fun w => congrArg x (lift_window h b p c w)
  rw [e0, ef]
  rfl

/-! ## The sums over the two leading axes -/

/-- Dropping axes 0 and 1 of `(i₀, i₁, i₂)` leaves `i₂`. -/
theorem drop_rows (h' : (⟨3, ![8, 64, 256]⟩ : Shape).ReducesTo [0, 1] ⟨1, ![256]⟩) (i : (⟨3, ![8, 64, 256]⟩ : Shape).Idx) :
    h'.drop i = ix1 (i 2) :=
  funext fun a => Fin.ext (by
    match a with
    | ⟨0, _⟩ => rfl)

/-- The indices dropping to `c`, summed, are the pairs `(b, p)`, summed. -/
theorem sum_filter_drop_rows (h' : (⟨3, ![8, 64, 256]⟩ : Shape).ReducesTo [0, 1] ⟨1, ![256]⟩)
    (x : (⟨3, ![8, 64, 256]⟩ : Shape).Idx → EReal) (c : Fin 256) :
    ∑ i ∈ Finset.univ.filter (fun i => h'.drop i = ix1 c), x i = ∑ b : Fin 8, ∑ p : Fin 64, x (ix3 b p c) := by
  rw [← Fintype.sum_prod_type' (f := fun (b : Fin 8) (p : Fin 64) => x (ix3 b p c))]
  have key : ∀ i : (⟨3, ![8, 64, 256]⟩ : Shape).Idx, h'.drop i = ix1 c → ix3 (i 0) (i 1) c = i := by
    intro i hi
    rw [drop_rows] at hi
    have h2 : i 2 = c := congrFun hi 0
    rw [← h2]
    exact (eq_ix3 i).symm
  refine Finset.sum_nbij' (fun i => ((i 0 : Fin 8), (i 1 : Fin 64))) (fun bp => ix3 bp.1 bp.2 c) ?_ ?_ ?_ ?_ ?_
  · intro i _; exact Finset.mem_univ _
  · intro bp _; exact Finset.mem_filter.2 ⟨Finset.mem_univ _, drop_rows h' _⟩
  · intro i hi; exact key i (Finset.mem_filter.1 hi).2
  · intro bp _; rfl
  · intro i hi; exact (congrArg x (key i (Finset.mem_filter.1 hi).2)).symm

/-- The sum over axes 0 and 1, from the initial value, at `c`. -/
theorem sumRows_apply (x : (⟨3, ![8, 64, 256]⟩ : Shape).Idx → EReal) (init : (⟨0, ![]⟩ : Shape).Idx → EReal)
    (h' : (⟨3, ![8, 64, 256]⟩ : Shape).ReducesTo [0, 1] ⟨1, ![256]⟩) (hu : 0 < (⟨0, ![]⟩ : Shape).numel) (c : Fin 256) :
    Host.reduceAdd (F := Ideal) (φ := .f32) x init h' hu (ix1 c)
      = init ix0 + ∑ b : Fin 8, ∑ p : Fin 64, x (ix3 b p c) := by
  have e0 : Shape.Idx.first hu = ix0 := eq_ix0 _
  show Ideal.hostReduceAdd h' x (init (Shape.Idx.first hu)) (ix1 c) = _
  rw [e0]
  unfold Ideal.hostReduceAdd
  rw [sum_filter_drop_rows]

end Cert.ReferenceIdeal.RefReduce

end
-- ==== Proof.RefPooled.lean ====
/-
  The first ten operations of the reference, read at an index: the pooled activation is the specification's.

  * The bias-added down-projection at `(b, s, c)` is `Σ_k X[b,s,k] · Wd[c,k] + bd[c]`: the contraction reads the left
    operand at `(b, s, k)` and the right at `(c, k)`, and the two broadcasts of the bias read it at `c`.
  * The reshape `8 × 4096 × 256 → 8 × 64 × 64 × 256` keeps the row-major position, so element `(b, p, w, c)` of the
    reshaped array is element `(b, 64 p + w, c)` of the original: sequence position `64 p + w` is element `w` of window `p`.
  * The maximum over the window axis from `-∞` is the fold of `max` over the 64 window elements, and the outlined
    clip is the maximum with a broadcast zero.
-/
import proofs.«119483_j28656021799561_2_alg».proof.Proof.RefReadP
import proofs.«119483_j28656021799561_2_alg».proof.Proof.RefReduce
import proofs.«119483_j28656021799561_2_alg».proof.Proof.Spec

noncomputable section

open scoped BigOperators

namespace Cert.ReferenceIdeal.RefPooled

open Cert.ReferenceIdeal Cert.ReferenceIdeal.Gen Idealize.ShloMosaic Idealize.ShloMosaic.ValueIdx
open Cert.ReferenceIdeal.ReadP

/-! ## The index equations -/

/-- The contraction reads the left operand at `(b, s, k)`. -/
theorem lidx_down (b : Fin 8) (s : Fin 4096) (c : Fin 256) (k : Fin 1024) :
    lidx_main_v0 (ix3 b s c) k = ix3 b s k :=
  funext fun a => Fin.ext (by
    match a with
    | ⟨0, _⟩ => rfl
    | ⟨1, _⟩ => rfl
    | ⟨2, _⟩ => rfl)

/-- The contraction reads the right operand at `(c, k)`. -/
theorem ridx_down (b : Fin 8) (s : Fin 4096) (c : Fin 256) (k : Fin 1024) :
    ridx_main_v0 (ix3 b s c) k = ix2 c k :=
  funext fun a => Fin.ext (by
    match a with
    | ⟨0, _⟩ => rfl
    | ⟨1, _⟩ => rfl)

/-- The two broadcasts of the bias read it at the channel. -/
theorem idx_bias (b : Fin 8) (s : Fin 4096) (c : Fin 256) :
    idx_main_v1 (idx_main_v2 (ix3 b s c)) = ix1 c :=
  funext fun a => Fin.ext (by
    match a with
    | ⟨0, _⟩ => rfl)

/-- Element `(b, p, w, c)` of the reshaped array is element `(b, 64 p + w, c)` of the original. -/
theorem idx_reshape (b : Fin 8) (p w : Fin 64) (c : Fin 256) :
    idx_main_v4 (ix4 b p w c) = ix3 b (Spec.seqPos p w) c :=
  funext fun a => Fin.ext (by
    have hb := b.isLt; have hp := p.isLt; have hw := w.isLt; have hc := c.isLt
    match a with
    | ⟨0, _⟩ => show (((b.val * 64 + p.val) * 64 + w.val) * 256 + c.val) / 1048576 = b.val; omega
    | ⟨1, _⟩ => show (((b.val * 64 + p.val) * 64 + w.val) * 256 + c.val) / 256 % 4096 = 64 * p.val + w.val; omega
    | ⟨2, _⟩ => show (((b.val * 64 + p.val) * 64 + w.val) * 256 + c.val) % 256 = c.val; omega)

variable (x0 : (⟨S8x4096x1024, .f32⟩ : BufTy).Contents (Elt Ideal)) (x1 : (⟨S256x1024, .f32⟩ : BufTy).Contents (Elt Ideal))
  (x2 : (⟨S256, .f32⟩ : BufTy).Contents (Elt Ideal))

/-! ## The stages -/

/-- The bias-added down-projection is the specification's. -/
theorem down_apply (b : Fin 8) (s : Fin 4096) (c : Fin 256) :
    val_main_v3 (F := Ideal) x0 x1 x2 (ix3 b s c) = Spec.down x0 x1 x2 b s c := by
  rw [val_main_v3_apply, val_main_v0_apply, val_main_v2_apply, val_main_v1_apply, idx_bias]
  simp only [lidx_down, ridx_down]
  rfl

/-- The reshaped array at `(b, p, w, c)` is the down-projection at sequence position `64 p + w`. -/
theorem window_apply (b : Fin 8) (p w : Fin 64) (c : Fin 256) :
    val_main_v4 (F := Ideal) x0 x1 x2 (ix4 b p w c) = Spec.down x0 x1 x2 b (Spec.seqPos p w) c := by
  rw [val_main_v4_apply, idx_reshape, down_apply]

/-- The pooled activation is the specification's. -/
theorem pooled_apply (b : Fin 8) (p : Fin 64) (c : Fin 256) :
    val_main_v6 (F := Ideal) x0 x1 x2 (ix3 b p c) = Spec.pooled x0 x1 x2 b p c := by
  rw [val_main_v6_apply, val_main_call0_v0_apply, val_main_call0_cst_apply]
  unfold val_main_v5
  rw [RefReduce.windowMax_apply]
  have hf : (fun w : Fin 64 => val_main_v4 (F := Ideal) x0 x1 x2 (ix4 b p w c))
      = fun w => Spec.down x0 x1 x2 b (Spec.seqPos p w) c := funext fun w => window_apply x0 x1 x2 b p w c
  rw [hf, val_main_cst_apply]
  rfl

end Cert.ReferenceIdeal.RefPooled

end
-- ==== Proof.RefNorm.lean ====
/-
  The other 34 operations of the reference, read at an index over the pooled activation `P b p c` (the stage
  `val_main_v6` at `(b, p, c)`): the result is the specification's up-projection of the normalised `P`.

  * A per-channel vector broadcast to `1 × 1 × 256` and then to `8 × 64 × 256` is read at `(b, p, c)` at the channel `c`.
  * The two sums over the batch and window axes start from the zero word, which is the real `0`, so each is the double
    sum `Σ_b Σ_p`; divided by the word for 512 they are the channel mean and the biased channel variance.
  * The normalisation is `(P - mean) · rsqrt (var + ε) · γ + β`, and the second contraction reads it at `(b, p, k)`
    and the weight at `(d, k)`; the bias of the up-projection is read at `d`.
-/
import proofs.«119483_j28656021799561_2_alg».proof.Proof.RefReadP
import proofs.«119483_j28656021799561_2_alg».proof.Proof.RefReduce
import proofs.«119483_j28656021799561_2_alg».proof.Proof.Spec

noncomputable section

open scoped BigOperators

namespace Cert.ReferenceIdeal.RefNorm

open Cert.ReferenceIdeal Cert.ReferenceIdeal.Gen Idealize.ShloMosaic Idealize.ShloMosaic.ValueIdx
open Cert.ReferenceIdeal.ReadP

/-! ## The index equations: a broadcast channel vector is read at the channel -/

/-- The mean, broadcast for the variance, is read at the channel. -/
theorem idx_mean (b : Fin 8) (p : Fin 64) (c : Fin 256) :
    idx_main_v10 (idx_main_v11 (ix3 b p c)) = ix1 c :=
  funext fun a => Fin.ext (by
    match a with
    | ⟨0, _⟩ => rfl)

/-- The mean, broadcast for the normalisation, is read at the channel. -/
theorem idx_mean' (b : Fin 8) (p : Fin 64) (c : Fin 256) :
    idx_main_v17 (idx_main_v18 (ix3 b p c)) = ix1 c :=
  funext fun a => Fin.ext (by
    match a with
    | ⟨0, _⟩ => rfl)

/-- The reciprocal standard deviation is read at the channel. -/
theorem idx_rstd (b : Fin 8) (p : Fin 64) (c : Fin 256) :
    idx_main_v23 (idx_main_v24 (ix3 b p c)) = ix1 c :=
  funext fun a => Fin.ext (by
    match a with
    | ⟨0, _⟩ => rfl)

/-- The scale is read at the channel. -/
theorem idx_gamma (b : Fin 8) (p : Fin 64) (c : Fin 256) :
    idx_main_v26 (idx_main_v27 (ix3 b p c)) = ix1 c :=
  funext fun a => Fin.ext (by
    match a with
    | ⟨0, _⟩ => rfl)

/-- The shift is read at the channel. -/
theorem idx_beta (b : Fin 8) (p : Fin 64) (c : Fin 256) :
    idx_main_v29 (idx_main_v30 (ix3 b p c)) = ix1 c :=
  funext fun a => Fin.ext (by
    match a with
    | ⟨0, _⟩ => rfl)

/-- The bias of the up-projection is read at the output feature. -/
theorem idx_bias (b : Fin 8) (p : Fin 64) (d : Fin 1024) :
    idx_main_v33 (idx_main_v34 (ix3 b p d)) = ix1 d :=
  funext fun a => Fin.ext (by
    match a with
    | ⟨0, _⟩ => rfl)

/-- The second contraction reads the normalised activation at `(b, p, k)`. -/
theorem lidx_up (b : Fin 8) (p : Fin 64) (d : Fin 1024) (k : Fin 256) :
    lidx_main_v32 (ix3 b p d) k = ix3 b p k :=
  funext fun a => Fin.ext (by
    match a with
    | ⟨0, _⟩ => rfl
    | ⟨1, _⟩ => rfl
    | ⟨2, _⟩ => rfl)

/-- The second contraction reads the weight at `(d, k)`. -/
theorem ridx_up (b : Fin 8) (p : Fin 64) (d : Fin 1024) (k : Fin 256) :
    ridx_main_v32 (ix3 b p d) k = ix2 d k :=
  funext fun a => Fin.ext (by
    match a with
    | ⟨0, _⟩ => rfl
    | ⟨1, _⟩ => rfl)

variable (x0 : (⟨S8x4096x1024, .f32⟩ : BufTy).Contents (Elt Ideal)) (x1 : (⟨S256x1024, .f32⟩ : BufTy).Contents (Elt Ideal))
  (x2 : (⟨S256, .f32⟩ : BufTy).Contents (Elt Ideal))

/-- The pooled activation by coordinates. -/
def P : Fin 8 → Fin 64 → Fin 256 → EReal := fun b p c => val_main_v6 (F := Ideal) x0 x1 x2 (ix3 b p c)

/-! ## The channel statistics -/

/-- The channel mean. -/
theorem mean_apply (c : Fin 256) :
    val_main_v9 (F := Ideal) x0 x1 x2 (ix1 c) = Spec.chanMean (P x0 x1 x2) c := by
  rw [val_main_v9_apply, val_main_v8_apply, val_main_cst_1_apply]
  unfold val_main_v7
  rw [RefReduce.sumRows_apply, val_main_cst_0_apply]
  rw [show FloatOps.ofBits (F := Ideal) .f32 0x00000000#32 = (0 : EReal) from Ideal.ofBits_zero_f32, zero_add]
  rfl

/-- The pooled activation less its channel mean, as the variance reads it. -/
theorem centered_apply (b : Fin 8) (p : Fin 64) (c : Fin 256) :
    val_main_v12 (F := Ideal) x0 x1 x2 (ix3 b p c) = P x0 x1 x2 b p c - Spec.chanMean (P x0 x1 x2) c := by
  rw [val_main_v12_apply, val_main_v11_apply, val_main_v10_apply, idx_mean, mean_apply]
  rfl

/-- Its square. -/
theorem square_apply (b : Fin 8) (p : Fin 64) (c : Fin 256) :
    val_main_v13 (F := Ideal) x0 x1 x2 (ix3 b p c)
      = (P x0 x1 x2 b p c - Spec.chanMean (P x0 x1 x2) c) * (P x0 x1 x2 b p c - Spec.chanMean (P x0 x1 x2) c) := by
  rw [val_main_v13_apply, centered_apply]
  rfl

/-- The biased channel variance. -/
theorem var_apply (c : Fin 256) :
    val_main_v16 (F := Ideal) x0 x1 x2 (ix1 c) = Spec.chanVar (P x0 x1 x2) c := by
  rw [val_main_v16_apply, val_main_v15_apply, val_main_cst_3_apply]
  unfold val_main_v14
  rw [RefReduce.sumRows_apply, val_main_cst_2_apply]
  rw [show FloatOps.ofBits (F := Ideal) .f32 0x00000000#32 = (0 : EReal) from Ideal.ofBits_zero_f32, zero_add]
  rw [show (∑ b : Fin 8, ∑ p : Fin 64, val_main_v13 (F := Ideal) x0 x1 x2 (ix3 b p c))
      = ∑ b : Fin 8, ∑ p : Fin 64, (P x0 x1 x2 b p c - Spec.chanMean (P x0 x1 x2) c) * (P x0 x1 x2 b p c - Spec.chanMean (P x0 x1 x2) c)
      from Finset.sum_congr rfl fun b _ => Finset.sum_congr rfl fun p _ => square_apply x0 x1 x2 b p c]
  rfl

/-! ## The normalisation -/

/-- The pooled activation less its channel mean, as the normalisation reads it. -/
theorem centered_apply' (b : Fin 8) (p : Fin 64) (c : Fin 256) :
    val_main_v19 (F := Ideal) x0 x1 x2 (ix3 b p c) = P x0 x1 x2 b p c - Spec.chanMean (P x0 x1 x2) c := by
  rw [val_main_v19_apply, val_main_v18_apply, val_main_v17_apply, idx_mean', mean_apply]
  rfl

/-- The reciprocal standard deviation, broadcast. -/
theorem rstd_apply (b : Fin 8) (p : Fin 64) (c : Fin 256) :
    val_main_v24 (F := Ideal) x0 x1 x2 (ix3 b p c) = Ideal.rsqrt (Spec.chanVar (P x0 x1 x2) c + Spec.eps) := by
  rw [val_main_v24_apply, val_main_v23_apply, idx_rstd, val_main_v22_apply, val_main_v21_apply, var_apply,
    val_main_v20_apply, val_main_cst_4_apply]
  rfl

variable (x3 x4 : (⟨S256, .f32⟩ : BufTy).Contents (Elt Ideal)) (x5 : (⟨S1024x256, .f32⟩ : BufTy).Contents (Elt Ideal))
  (x6 : (⟨S1024, .f32⟩ : BufTy).Contents (Elt Ideal))

/-- The normalised activation is the specification's. -/
theorem normed_apply (b : Fin 8) (p : Fin 64) (c : Fin 256) :
    val_main_v31 (F := Ideal) x0 x1 x2 x3 x4 (ix3 b p c) = Spec.normed (P x0 x1 x2) x3 x4 b p c := by
  rw [val_main_v31_apply, val_main_v28_apply, val_main_v25_apply, centered_apply', rstd_apply,
    val_main_v27_apply, val_main_v26_apply, idx_gamma, val_main_v30_apply, val_main_v29_apply, idx_beta]
  rfl

/-! ## The up-projection -/

/-- The result at `(b, p, d)` is the specification's up-projection of the normalised pooled activation. -/
theorem up_apply (b : Fin 8) (p : Fin 64) (d : Fin 1024) :
    val_main_v35 (F := Ideal) x0 x1 x2 x3 x4 x5 x6 (ix3 b p d) = Spec.up (P x0 x1 x2) x3 x4 x5 x6 b p d := by
  rw [val_main_v35_apply, val_main_v32_apply, val_main_v34_apply, val_main_v33_apply, idx_bias]
  rw [show (∑ k : Fin 256, val_main_v31 (F := Ideal) x0 x1 x2 x3 x4 (lidx_main_v32 (ix3 b p d) k) * x5 (ridx_main_v32 (ix3 b p d) k))
      = ∑ k : Fin 256, Spec.normed (P x0 x1 x2) x3 x4 b p k * x5 (ix2 d k)
      from Finset.sum_congr rfl fun k _ => by rw [lidx_up, ridx_up, normed_apply]]
  rfl

end Cert.ReferenceIdeal.RefNorm

end
-- ==== Proof.RefValue.lean ====
/-
  The reference's value: every weakly fair execution of the reference program terminates with the result buffer at
  the specification's result array of the seven arguments, and the arguments unchanged.

  The run gives the result as the last stage of the arguments (RefRun.lean). Index by index that stage is the
  specification's up-projection over the pooled activation read off the sixth stage (RefNorm.lean), and the sixth
  stage is the specification's pooled activation (RefPooled.lean).
-/
import proofs.«119483_j28656021799561_2_alg».proof.Proof.RefRun
import proofs.«119483_j28656021799561_2_alg».proof.Proof.RefPooled
import proofs.«119483_j28656021799561_2_alg».proof.Proof.RefNorm

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx Cert.ReferenceIdeal.ReadP

variable (x0 : (⟨S8x4096x1024, .f32⟩ : BufTy).Contents (Elt Ideal)) (x1 : (⟨S256x1024, .f32⟩ : BufTy).Contents (Elt Ideal))
  (x2 : (⟨S256, .f32⟩ : BufTy).Contents (Elt Ideal))
  (x3 x4 : (⟨S256, .f32⟩ : BufTy).Contents (Elt Ideal)) (x5 : (⟨S1024x256, .f32⟩ : BufTy).Contents (Elt Ideal))
  (x6 : (⟨S1024, .f32⟩ : BufTy).Contents (Elt Ideal))

/-- The pooled activation read off the sixth stage is the specification's. -/
theorem pooled_eq : RefNorm.P x0 x1 x2 = Spec.pooled x0 x1 x2 :=
  funext fun b => funext fun p => funext fun c => RefPooled.pooled_apply x0 x1 x2 b p c

/-- The last stage is the specification's result array. -/
theorem result_eq : val_main_v35 (F := Ideal) x0 x1 x2 x3 x4 x5 x6 = Spec.result x0 x1 x2 x3 x4 x5 x6 := by
  funext i
  obtain ⟨b, p, d, rfl⟩ : ∃ (b : Fin 8) (p : Fin 64) (d : Fin 1024), i = ix3 b p d := ⟨i 0, i 1, i 2, eq_ix3 i⟩
  rw [RefNorm.up_apply, pooled_eq, Spec.result_apply]

/-- On every device, from any memory with zero counters: every weakly fair execution of the reference program
    terminates with the result at the specification's result array of the arguments, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v35) = Cert.Spec.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run (defs (F := Ideal)) _ _).mono
    (fun _ h c => ⟨(h c).1.trans (result_eq _ _ _ _ _ _ _), (h c).2⟩)
    (RefRun.run (F := Ideal) m ρ)

end Cert.ReferenceIdeal.RefValue

end
-- ==== Proof.LibSumLastAxis.lean ====
/-
  A host sum over the two leading axes of a rank-3 array, read at an entry.

  The host's float sum over axes `0` and `1` of an `n0 × n1 × n2` array is, at the extended reals, the initial value plus the
  sum of the operand's entries whose remaining coordinate is the result's: at `c`, `init + Σ_a Σ_b x[a, b, c]`. The index
  set of a rank-3 array is the product of its three coordinate ranges, so a sum over the entries with a fixed last
  coordinate is the double sum over the other two.
-/
import Idealize.ShloMosaic.PureOps.Ideal
import Idealize.ShloMosaic.Lib.ValueIdx

noncomputable section

open scoped BigOperators

namespace Cert.Lib

open Idealize.ShloMosaic Idealize.ShloMosaic.ValueIdx

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- The entries with last coordinate `c`: their sum is the double sum over the first two coordinates. -/
theorem sum_filter_last {M : Type*} [AddCommMonoid M] {n0 n1 n2 : Nat} (f : (⟨3, ![n0, n1, n2]⟩ : Shape).Idx → M) (c : Fin n2) :
    ∑ i ∈ Finset.univ.filter (fun i : (⟨3, ![n0, n1, n2]⟩ : Shape).Idx => (i 2).val = c.val), f i
      = ∑ a : Fin n0, ∑ b : Fin n1, f (ix3 a b c) := by
  rw [Finset.sum_filter, sum_idx3]
  refine Finset.sum_congr rfl fun a _ => Finset.sum_congr rfl fun b _ => ?_
  show ∑ c' : Fin n2, (if c'.val = c.val then f (ix3 a b c') else 0) = _
  rw [Finset.sum_congr rfl (fun c' _ => (if_congr Fin.val_inj rfl rfl :
      (if c'.val = c.val then f (ix3 a b c') else 0) = if c' = c then f (ix3 a b c') else 0)),
    Finset.sum_ite_eq' Finset.univ c (fun c' => f (ix3 a b c')), if_pos (Finset.mem_univ c)]

/-- THE HOST SUM OVER THE TWO LEADING AXES, at entry `c`: the initial value plus `Σ_a Σ_b x[a, b, c]`. -/
theorem hostReduceAdd_axes01 {n0 n1 n2 : Nat} (x : (⟨3, ![n0, n1, n2]⟩ : Shape).Idx → EReal) (init : EReal)
    (h' : (⟨3, ![n0, n1, n2]⟩ : Shape).ReducesTo [0, 1] ⟨1, ![n2]⟩) (c : Fin n2) :
    Ideal.hostReduceAdd h' x init (ix1 c) = init + ∑ a : Fin n0, ∑ b : Fin n1, x (ix3 a b c) := by
  unfold Ideal.hostReduceAdd
  refine congrArg (init + ·) ?_
  rw [← sum_filter_last x c]
  refine Finset.sum_congr (Finset.filter_congr fun i _ => ?_) fun _ _ => rfl
  have hv : (h'.drop i (0 : Fin 1)).val = (i 2).val := rfl
  constructor
  · intro h
    rw [← hv, h]
  · intro h
    funext a
    match a with
    | ⟨0, _⟩ =>
      refine Fin.ext ?_
      show (h'.drop i (0 : Fin 1)).val = c.val
      rw [hv, h]

end Cert.Lib

end
-- ==== Proof.lean ====
/-
  The certificate: a two-kernel Pallas program against its jnp reference, equal over the extended reals.

  Both programs compute, from hidden states `X`, a down-projection `Wd, bd`, batch-norm parameters `γ, β` and an
  up-projection `Wu, bu`: the projected rows `X·Wdᵀ + bd`; their maximum over each of the 64 windows of 64 sequence
  positions, clipped at zero; the mean and biased variance of each channel over the `8 · 64` pooled rows; the normalised
  rows `(h - mean) · rsqrt (var + ε) · γ + β`; and their up-projection `·Wuᵀ + bu`. The kernel tiles the first three steps
  over batches and sequence halves in one pallas_call and does the rest on the flattened `512 × 256` matrix in a second;
  the reference works on the whole arrays. At the extended reals a change of float format is the identity, a matrix
  product is the plain sum over the contracted index, and the two programs use the same literals (`-∞`, `0`, `512`, `ε`):
  they differ only in how rows are grouped, and a sum does not depend on the grouping. So both results are the one
  function `Cert.Spec.result` of the arguments, and no property of the inputs is used.

  The three frames: the two kernels' from the generated frame proofs, the reference's from its run. The idealization
  rewrote nothing, so it is preserved trivially.
-/
import proofs.«119483_j28656021799561_2_alg».proof.Defs
import proofs.«119483_j28656021799561_2_alg».proof.Proof.Gen.Kernel
import proofs.«119483_j28656021799561_2_alg».proof.Proof.Gen.Kernel.Skeleton
import proofs.«119483_j28656021799561_2_alg».proof.Proof.Gen.Kernel.Launch
import proofs.«119483_j28656021799561_2_alg».proof.Proof.Gen.Kernel.Points
import proofs.«119483_j28656021799561_2_alg».proof.Proof.Gen.Kernel.Frame
import proofs.«119483_j28656021799561_2_alg».proof.Proof.Gen.KernelIdeal
import proofs.«119483_j28656021799561_2_alg».proof.Proof.Gen.KernelIdeal.Skeleton
import proofs.«119483_j28656021799561_2_alg».proof.Proof.Gen.KernelIdeal.Launch
import proofs.«119483_j28656021799561_2_alg».proof.Proof.Gen.KernelIdeal.Points
import proofs.«119483_j28656021799561_2_alg».proof.Proof.Gen.KernelIdeal.Frame
import proofs.«119483_j28656021799561_2_alg».proof.Proof.Gen.ReferenceIdeal
import proofs.«119483_j28656021799561_2_alg».proof.Proof.Gen.Pre_finite_inputs
import proofs.«119483_j28656021799561_2_alg».proof.Proof.KerValue
import proofs.«119483_j28656021799561_2_alg».proof.Proof.RefValue
import proofs.«119483_j28656021799561_2_alg».proof.Proof.LibSumLastAxis
import Idealize.ShloMosaic.Adequacy
import Idealize.ShloMosaic.Init

noncomputable section

namespace Cert.Proof

open Idealize.ShloMosaic Idealize.SL.Sem

/-- The word-level kernel runs and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's frame is its run with the result forgotten. -/
theorem frame_referenceIdeal : Cert.frame_ReferenceIdeal := fun m ρ _ =>
  (θ_run Cert.ReferenceIdeal.defs _ _).mono (fun _ h c => (h c).2) (Cert.ReferenceIdeal.RefValue.run m ρ)

/-- The idealization rewrote no operation. -/
theorem preserves : Cert.preserves_Kernel_KernelIdeal := trivial

/-- From memories that agree on the arguments both programs end with the result array at the specification's function
    of those arguments. -/
theorem algebraic : Cert.algebraic_KernelIdeal_ReferenceIdeal := by
  intro m ρ m' ρ' _ hagree
  refine ⟨_, Cert.KernelIdeal.KerValue.run m ρ, ?_⟩
  refine (θ_run Cert.ReferenceIdeal.defs _ _).mono (fun _ h c => ⟨(h c).1.trans ?_, (h c).2⟩)
    (Cert.ReferenceIdeal.RefValue.run m' ρ')
  obtain ⟨e0, e1, e2, e3, e4, e5, e6⟩ := hagree c
  rw [e0, e1, e2, e3, e4, e5, e6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
